-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 107
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x64, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x1, .f32⟩
  | .hbm, ⟨58, _⟩ => ⟨S3300000x64, .f32⟩
  | .hbm, ⟨59, _⟩ => ⟨S3300000x64, .f32⟩
  | .hbm, ⟨60, _⟩ => ⟨S_, .f32⟩
  | .hbm, ⟨61, _⟩ => ⟨S100000x64, .f32⟩
  | .hbm, ⟨62, _⟩ => ⟨S3300000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x1, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x1, .f32⟩
  | .hbm, ⟨76, _⟩ => ⟨S3300000x1, .f32⟩
  | .hbm, ⟨77, _⟩ => ⟨S3300000x1, .f32⟩
  | .hbm, ⟨78, _⟩ => ⟨S_, .f32⟩
  | .hbm, ⟨79, _⟩ => ⟨S100000x1, .f32⟩
  | .hbm, ⟨80, _⟩ => ⟨S3300000x1, .i32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .hbm, ⟨85, _⟩ => ⟨S_, .i32⟩
  | .hbm, ⟨86, _⟩ => ⟨S100000, .i32⟩
  | .hbm, ⟨87, _⟩ => ⟨S_, .i32⟩
  | .hbm, ⟨88, _⟩ => ⟨S64, .i32⟩
  | .hbm, ⟨89, _⟩ => ⟨S100000x1, .i32⟩
  | .hbm, ⟨90, _⟩ => ⟨S64, .i32⟩
  | .hbm, ⟨91, _⟩ => ⟨S_, .i32⟩
  | .hbm, ⟨92, _⟩ => ⟨S_, .i32⟩
  | .hbm, ⟨93, _⟩ => ⟨S64, .i32⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S_, .i32⟩
  | .hbm, ⟨98, _⟩ => ⟨S64, .i32⟩
  | .hbm, ⟨99, _⟩ => ⟨S64, .i1⟩
  | .hbm, ⟨100, _⟩ => ⟨S_, .i32⟩
  | .hbm, ⟨101, _⟩ => ⟨S64, .i32⟩
  | .hbm, ⟨102, _⟩ => ⟨S64, .i32⟩
  | .hbm, ⟨103, _⟩ => ⟨S64, .i32⟩
  | .hbm, ⟨104, _⟩ => ⟨S64x1, .i32⟩
  | .hbm, ⟨105, _⟩ => ⟨S64x1, .f32⟩
  | .hbm, ⟨106, _⟩ => ⟨S64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x1, .f32⟩
  | .local _ .vmem, ⟨13, _⟩ => ⟨S10000x1, .f32⟩
  | .local _ .vmem, ⟨14, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_call0_c : Ref sig .tc := ⟨.hbm, 91, rfl⟩
abbrev main_call1_call0_v0 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S64 : S_.BroadcastsInDim S64 (![] : Fin 0 → Fin S64.rank)
  bcast_S100000_S100000x1_0 : S100000.BroadcastsInDim S100000x1 (![0] : Fin 1 → Fin S100000x1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S64_S64x1_0 : S64.BroadcastsInDim S64x1 (![0] : Fin 1 → Fin S64x1.rank)
  shapeCasts_S64x1_S64 : S64x1.ShapeCasts S64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S64_S100000x1_S100000_n_0_0_1_wf : ScatterDims.WF S64 S100000x1 S100000 [] [0] [0] 1
  gather_S100000x1_S64x1_S64x1_1_0_n_n_0_1_11_wf : GatherDims.WF S100000x1 S64x1 S64x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S100000x1_S64x1_S64x1_1_0_n_n_0_1_11 : GatherDims S100000x1 S64x1 S64x1 where
  offsetDims := [1]
  collapsedSliceDims := [0]
  operandBatchingDims := []
  startIndicesBatchingDims := []
  startIndexMap := [0]
  indexVectorDim := 1
  sliceSizes := ![1, 1]
  wf := gather_S100000x1_S64x1_S64x1_1_0_n_n_0_1_11_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x1, .f32⟩
  | 6 => ⟨S1, .f32⟩
  | 7 => ⟨S1x3200000, .i32⟩
  | 8 => ⟨S3200000, .i32⟩
  | 9 => ⟨S1x3200000, .i32⟩
  | 10 => ⟨S3200000, .i32⟩
  | 11 => ⟨S100000x64, .f32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x64, .f32⟩
  | 57 => ⟨S3300000x1, .f32⟩
  | 58 => ⟨S3300000x64, .f32⟩
  | 59 => ⟨S3300000x64, .f32⟩
  | 60 => ⟨S_, .f32⟩
  | 61 => ⟨S100000x64, .f32⟩
  | 62 => ⟨S3300000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x1, .f32⟩
  | 71 => ⟨S100000, .i32⟩
  | 72 => ⟨S3300000, .i32⟩
  | 73 => ⟨S3300000, .i32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x1, .f32⟩
  | 116 => ⟨S3300000x1, .f32⟩
  | 117 => ⟨S3300000x1, .f32⟩
  | 118 => ⟨S_, .f32⟩
  | 119 => ⟨S100000x1, .f32⟩
  | 120 => ⟨S3300000x1, .i32⟩
  | 121 => ⟨S100000x1, .f32⟩
  | 122 => ⟨S1x1, .f32⟩
  | 123 => ⟨S100000x1, .f32⟩
  | 124 => ⟨S100000x1, .f32⟩
  | 125 => ⟨S_, .i32⟩
  | 126 => ⟨S100000, .i32⟩
  | 127 => ⟨S_, .i32⟩
  | _ => ⟨S100000x128, .f32⟩

abbrev hbmTy0_1 (i : Nat) : BufTy := match i % 128 with
  | 0 => ⟨S64, .i32⟩
  | 1 => ⟨S100000x1, .i32⟩
  | 2 => ⟨S64, .i32⟩
  | 3 => ⟨S_, .i32⟩
  | 4 => ⟨S_, .i32⟩
  | 5 => ⟨S64, .i32⟩
  | 6 => ⟨S_, .i32⟩
  | 7 => ⟨S64, .i32⟩
  | 8 => ⟨S64, .i32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S64x1, .f32⟩
  | 18 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_c_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call3_call0_c : Ref sig .tc := ⟨.hbm, 131, rfl⟩
abbrev main_call3_call0_v0 : Ref sig .tc := ⟨.hbm, 132, rfl⟩
abbrev main_v94 : Ref sig .tc := ⟨.hbm, 133, rfl⟩
abbrev main_c_22 : Ref sig .tc := ⟨.hbm, 134, rfl⟩
abbrev main_v95 : Ref sig .tc := ⟨.hbm, 135, rfl⟩
abbrev main_v96 : Ref sig .tc := ⟨.hbm, 136, rfl⟩
abbrev main_c_23 : Ref sig .tc := ⟨.hbm, 137, rfl⟩
abbrev main_v97 : Ref sig .tc := ⟨.hbm, 138, rfl⟩
abbrev main_v98 : Ref sig .tc := ⟨.hbm, 139, rfl⟩
abbrev main_c_24 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S64 : S_.BroadcastsInDim S64 (![] : Fin 0 → Fin S64.rank)
  bcast_S100000_S100000x1_0 : S100000.BroadcastsInDim S100000x1 (![0] : Fin 1 → Fin S100000x1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S64_S64x1_0 : S64.BroadcastsInDim S64x1 (![0] : Fin 1 → Fin S64x1.rank)
  shapeCasts_S64x1_S64 : S64x1.ShapeCasts S64
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S64_S100000x1_S100000_n_0_0_1_wf : ScatterDims.WF S64 S100000x1 S100000 [] [0] [0] 1
  gather_S100000x1_S64x1_S64x1_1_0_n_n_0_1_11_wf : GatherDims.WF S100000x1 S64x1 S64x1 [1] [0] [] [0] [] 1 ![1, 1]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S100000x1_S64x1_S64x1_1_0_n_n_0_1_11 : GatherDims S100000x1 S64x1 S64x1 where
  offsetDims := [1]
  collapsedSliceDims := [0]
  operandBatchingDims := []
  startIndicesBatchingDims := []
  startIndexMap := [0]
  indexVectorDim := 1
  sliceSizes := ![1, 1]
  wf := gather_S100000x1_S64x1_S64x1_1_0_n_n_0_1_11_wf

class Facts : Prop extends Facts₀ where

variable [Facts]
-- ==== Proof.KernelRun.lean ====
/-
  The idealized kernel program's run with its result named.

  The program is ten segments: three stretches of host operations, the first matrix product's launch, a stretch, the
  bias-and-rectifier launch, the second matrix product's launch, and three closing stretches. Its generated frame
  runs these segments from the launch memory and ends with every unscoped buffer of a core at the last boundary's
  contents, the fold `W10` of the host operations and the launches' write-backs over the launch memory; the generated
  frame theorem then reads only the argument arrays back. Here the same run is read at the result buffer as well:
  every weakly fair execution terminates, the result array ends at `W10` read at its buffer, and the arguments end as
  launched. What `W10` holds at the result buffer, as a function of the argument arrays, is the subject of the value
  modules.
-/
import proofs.«127868_j79087527789063_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel program terminates without a fault; the result array ends at
    the last boundary's contents read at its buffer, and the seven argument arrays end as launched. -/
theorem run_result : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.GcnSpec.lean ====
/-
  The two-layer graph convolution as one function of the argument arrays, stage by stage.

  Both programs compute, for node features `x`, an edge list `ei` (a row of sources over a row of targets), a graph
  assignment `batch`, and the two layers' weights and biases:
    * the edge lists with one self-loop per node appended (`withLoops`), the in-degree of every node as a scatter-add of
      ones over the targets (`degree`), its inverse square root where the degree is positive and zero elsewhere
      (`invSqrt`), and the symmetric edge weight `dinv[s] * dinv[d]` (`edgeNorm`), negative indices wrapped as
      jnp does before each gather;
    * layer 1: the rows `x · W1` gathered at the sources, scaled by the edge weight and scatter-added at the targets
      (`aggregateWide`), then the bias and the rectifier (`biasRelu`);
    * layer 2: the same aggregation of the one-column product `h1 · W2` (`aggregateThin`), then the bias (`addBias`);
    * the read-out: the number of nodes per graph as a scatter-add of ones (`graphSizes`), its running sum as a
      windowed reduction (`runningSum`), minus one and wrapped (`lastNode`), and the second layer's value gathered at
      those nodes (`pick`).
  Each stage is written with the host operations the printed reference applies, over the reference's shape records, so
  that a stretch of either program's host operations is one of these stages by unfolding; the two matrix products are
  the host `dot_general`s (`productWide`, `productThin`). `gcn` composes them. Nothing here opens a gather, a
  scatter or a windowed reduction: the two programs apply the same ones to the same operands.
-/
import proofs.«127868_j79087527789063_1_alg».proof.ReferenceIdeal

noncomputable section

namespace Cert.Gcn

open Idealize.ShloMosaic Cert.ReferenceIdeal

variable {F : FTy → Type} [FloatOps F] [Facts]
open Facts₀ Facts

/-- Row `0` of the edge list (the sources) as a vector. -/
def edgeRow0 (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000

/-- Row `1` of the edge list (the targets) as a vector. -/
def edgeRow1 (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- An edge row with the self-loops `0, 1, …, N-1` appended. -/
def withLoops (row : (⟨S3200000, .i32⟩ : BufTy).Contents (Elt F)) : (⟨S3300000, .i32⟩ : BufTy).Contents (Elt F) :=
  concatenate S3300000 0 [⟨S3200000, row⟩, ⟨S100000, (iotaInDim S100000 32 0 : (⟨S100000, .i32⟩ : BufTy).Contents (Elt F))⟩] concatenates_S3200000_S100000_S3300000_d0

/-- jnp's wrap of a negative index: `i < 0 ? i + N : i`, then a trailing unit axis for the gather. -/
def wrapIdx (i : (⟨S3300000, .i32⟩ : BufTy).Contents (Elt F)) : (⟨S3300000x1, .i32⟩ : BufTy).Contents (Elt F) :=
  broadcastInDim S3300000x1 ![0] bcast_S3300000_S3300000x1_0
    (select (cmpi .slt i (broadcastInDim S3300000 ![] bcast_S_S3300000 (constantI S_ 32 0#32 : (⟨S_, .i32⟩ : BufTy).Contents (Elt F))))
      (addi i (broadcastInDim S3300000 ![] bcast_S_S3300000 (constantI S_ 32 100000#32 : (⟨S_, .i32⟩ : BufTy).Contents (Elt F)))) i)

/-- The in-degree of every node: ones scatter-added at the targets. -/
def degree (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32 : (⟨S_, .f32⟩ : BufTy).Contents (Elt F)))
    (broadcastInDim S3300000x1 ![0] bcast_S3300000_S3300000x1_0 d)
    (broadcastInDim S3300000 ![] bcast_S_S3300000 (constant S_ .f32 0x3F800000#32 : (⟨S_, .f32⟩ : BufTy).Contents (Elt F)))

/-- `deg > 0 ? rsqrt deg : 0`. -/
def invSqrt (deg : (⟨S100000, .f32⟩ : BufTy).Contents (Elt F)) : (⟨S100000, .f32⟩ : BufTy).Contents (Elt F) :=
  select (cmpf .ogt deg (broadcastInDim S100000 ![] bcast_S_S100000 (constant S_ .f32 0x00000000#32 : (⟨S_, .f32⟩ : BufTy).Contents (Elt F))))
    (Host.rsqrt deg)
    (broadcastInDim S100000 ![] bcast_S_S100000 (id (constant S_ .f32 0x00000000#32 : (⟨S_, .f32⟩ : BufTy).Contents (Elt F))))

/-- The symmetric edge weight `dinv[s] * dinv[d]`. -/
def edgeNorm (dinv : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 dinv (wrapIdx s))
    (Host.gather gather_S100000_S3300000x1_S3300000_n_0_n_n_0_1_1 dinv (wrapIdx d))

/-- The first layer's matrix product on the host. -/
def productWide (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- Layer 1's aggregation: rows gathered at the sources, scaled by the edge weight, scatter-added at the targets. -/
def aggregateWide (h : (⟨S100000x64, .f32⟩ : BufTy).Contents (Elt F)) (s d : (⟨S3300000, .i32⟩ : BufTy).Contents (Elt F))
    (nrm : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32 : (⟨S_, .f32⟩ : BufTy).Contents (Elt F)))
    (broadcastInDim S3300000x1 ![0] bcast_S3300000_S3300000x1_0 d)
    (mulf (Host.gather gather_S100000x64_S3300000x1_S3300000x64_1_0_n_n_0_1_164 h (wrapIdx s))
      (broadcastInDim S3300000x64 ![0, 1] bcast_S3300000x1_S3300000x64_0_1 (broadcastInDim S3300000x1 ![0] bcast_S3300000_S3300000x1_0 nrm)))

/-- The bias along the rows, then `max(·, 0)`. -/
def biasRelu (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant S_ .f32 0x00000000#32 : (⟨S_, .f32⟩ : BufTy).Contents (Elt F)))

/-- The second layer's matrix product on the host. -/
def productThin (h : (⟨S100000x64, .f32⟩ : BufTy).Contents (Elt F)) (w : (⟨S64x1, .f32⟩ : BufTy).Contents (Elt F)) :
    (⟨S100000x1, .f32⟩ : BufTy).Contents (Elt F) :=
  Host.dotGeneral dot_S100000x64_S64x1_S100000x1_1_0_0_1_n_n none h w

/-- Layer 2's aggregation, on one column. -/
def aggregateThin (h : (⟨S100000x1, .f32⟩ : BufTy).Contents (Elt F)) (s d : (⟨S3300000, .i32⟩ : BufTy).Contents (Elt F))
    (nrm : (⟨S3300000, .f32⟩ : BufTy).Contents (Elt F)) : (⟨S100000x1, .f32⟩ : BufTy).Contents (Elt F) :=
  Host.scatterAdd scatter_S100000x1_S3300000x1_S3300000x1_1_0_0_1
    (broadcastInDim S100000x1 ![] bcast_S_S100000x1 (constant S_ .f32 0x00000000#32 : (⟨S_, .f32⟩ : BufTy).Contents (Elt F)))
    (broadcastInDim S3300000x1 ![0] bcast_S3300000_S3300000x1_0 d)
    (mulf (Host.gather gather_S100000x1_S3300000x1_S3300000x1_1_0_n_n_0_1_11 h (wrapIdx s))
      (broadcastInDim S3300000x1 ![0] bcast_S3300000_S3300000x1_0 nrm))

/-- The second layer's bias. -/
def addBias (a : (⟨S100000x1, .f32⟩ : BufTy).Contents (Elt F)) (b : (⟨S1, .f32⟩ : BufTy).Contents (Elt F)) :
    (⟨S100000x1, .f32⟩ : BufTy).Contents (Elt F) :=
  addf a (broadcastInDim S100000x1 ![0, 1] bcast_S1x1_S100000x1_0_1 (broadcastInDim S1x1 ![1] bcast_S1_S1x1_1 b))

/-- The number of nodes of every graph: ones scatter-added at the graph assignment. -/
def graphSizes (batch : (⟨S100000, .i32⟩ : BufTy).Contents (Elt F)) : (⟨S64, .i32⟩ : BufTy).Contents (Elt F) :=
  Host.scatter scatter_S64_S100000x1_S100000_n_0_0_1 IntOp.addi
    (broadcastInDim S64 ![] bcast_S_S64 (constantI S_ 32 0#32 : (⟨S_, .i32⟩ : BufTy).Contents (Elt F)))
    (broadcastInDim S100000x1 ![0] bcast_S100000_S100000x1_0 batch)
    (broadcastInDim S100000 ![] bcast_S_S100000 (constantI S_ 32 1#32 : (⟨S_, .i32⟩ : BufTy).Contents (Elt F)))

/-- The running sum of the sizes, as jnp.cumsum lowers it: a window of all earlier entries, padded in front. -/
def runningSum (n : (⟨S64, .i32⟩ : BufTy).Contents (Elt F)) : (⟨S64, .i32⟩ : BufTy).Contents (Elt F) :=
  Host.reduceWindow IntOp.addi ![64] ![1] ![63] ![0] n
    (broadcastInDim S_ ![] bcast_S_S_ (constantI S_ 32 0#32 : (⟨S_, .i32⟩ : BufTy).Contents (Elt F)))
    reduceWindows_S64_S64_w64s1p63_0 h_S_

/-- The last node of every graph, `cumsum - 1`, wrapped, with the gather's trailing unit axis. -/
def lastNode (cs : (⟨S64, .i32⟩ : BufTy).Contents (Elt F)) : (⟨S64x1, .i32⟩ : BufTy).Contents (Elt F) :=
  broadcastInDim S64x1 ![0] bcast_S64_S64x1_0
    (select
      (cmpi .slt (subi cs (broadcastInDim S64 ![] bcast_S_S64 (constantI S_ 32 1#32 : (⟨S_, .i32⟩ : BufTy).Contents (Elt F))))
        (broadcastInDim S64 ![] bcast_S_S64 (constantI S_ 32 0#32 : (⟨S_, .i32⟩ : BufTy).Contents (Elt F))))
      (addi (subi cs (broadcastInDim S64 ![] bcast_S_S64 (constantI S_ 32 1#32 : (⟨S_, .i32⟩ : BufTy).Contents (Elt F))))
        (broadcastInDim S64 ![] bcast_S_S64 (constantI S_ 32 100000#32 : (⟨S_, .i32⟩ : BufTy).Contents (Elt F))))
      (subi cs (broadcastInDim S64 ![] bcast_S_S64 (constantI S_ 32 1#32 : (⟨S_, .i32⟩ : BufTy).Contents (Elt F)))))

/-- The second layer's value at the chosen nodes, as a vector. -/
def pick (h : (⟨S100000x1, .f32⟩ : BufTy).Contents (Elt F)) (idx : (⟨S64x1, .i32⟩ : BufTy).Contents (Elt F)) :
    (⟨S64, .f32⟩ : BufTy).Contents (Elt F) :=
  shapeCast S64 (Host.gather gather_S100000x1_S64x1_S64x1_1_0_n_n_0_1_11 h idx) shapeCasts_S64x1_S64

/-- The whole network: both layers over the self-looped, symmetrically normalised graph, read at each graph's last node. -/
def gcn (x : (⟨S100000x128, .f32⟩ : BufTy).Contents (Elt F)) (ei : (⟨S2x3200000, .i32⟩ : BufTy).Contents (Elt F))
    (batch : (⟨S100000, .i32⟩ : BufTy).Contents (Elt F)) (w1 : (⟨S128x64, .f32⟩ : BufTy).Contents (Elt F))
    (b1 : (⟨S64, .f32⟩ : BufTy).Contents (Elt F)) (w2 : (⟨S64x1, .f32⟩ : BufTy).Contents (Elt F))
    (b2 : (⟨S1, .f32⟩ : BufTy).Contents (Elt F)) : (⟨S64, .f32⟩ : BufTy).Contents (Elt F) :=
  pick
    (addBias
      (aggregateThin
        (productThin
          (biasRelu (aggregateWide (productWide x w1) (withLoops (edgeRow0 ei)) (withLoops (edgeRow1 ei))
            (edgeNorm (invSqrt (degree (withLoops (edgeRow1 ei)))) (withLoops (edgeRow0 ei)) (withLoops (edgeRow1 ei)))) b1)
          w2)
        (withLoops (edgeRow0 ei)) (withLoops (edgeRow1 ei))
        (edgeNorm (invSqrt (degree (withLoops (edgeRow1 ei)))) (withLoops (edgeRow0 ei)) (withLoops (edgeRow1 ei))))
      b2)
    (lastNode (runningSum (graphSizes batch)))

end Cert.Gcn

end
-- ==== Proof.KernelStages.lean ====
/-
  The idealized kernel program's stretches of host operations, each read as a stage of the graph convolution.

  Between its three launches the program applies host operations to the buffers. Read from ANY contents `V` of the
  buffers when a stretch is entered, what a stretch leaves in the buffers that later segments read is a stage of the
  specification applied to `V` at the buffers the stretch reads:
    * the three stretches before the first launch leave the self-looped source and target lists and the symmetric
      edge weights, functions of the edge list alone, and do not touch the argument arrays;
    * the stretch between the first and second launch leaves the first layer's aggregation of the first launch's
      output, and the first bias laid out as one row; it does not touch the lists, the weights or the arguments;
    * the three stretches after the last launch leave, in the result buffer, the second layer's aggregation of the
      last launch's output plus the second bias, read at the last node of every graph.
  Each equation is the stretch's fold unrolled, one operation's result at a time; the two sides then differ only in
  how the shape records are spelt (the kernel program's against the reference's, the same lists of numbers).
-/
import proofs.«127868_j79087527789063_1_alg».proof.Proof.Gen.KernelIdeal.Launch
import proofs.«127868_j79087527789063_1_alg».proof.Proof.GcnSpec
import Idealize.ShloMosaic.Lib.StableHlo.Run

noncomputable section

namespace Cert.KernelIdeal.Hand

open Idealize.ShloMosaic Idealize.ShloMosaic.StableHlo Cert.KernelIdeal Cert.KernelIdeal.Gen

variable {F : FTy → Type} [FloatOps F] [Cert.ReferenceIdeal.Facts]

/-- A buffer none of a stretch's operations writes keeps its contents: the operations' result buffers are listed and
    each is another buffer. -/
local macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first launch -/

/-- The sources with the self-loops appended. -/
theorem entry_src (V : Valuation τ sig (Elt F)) :
    after (hostOps0_2 (F := F)) (after hostOps0_1 (after hostOps0 V)) (Proc.devRef .tc main_v5)
      = Cert.Gcn.withLoops (Cert.Gcn.edgeRow0 (V (Proc.devRef .tc main_arg1))) := by
  dsimp only [hostOps0, hostOps0_1, hostOps0_2]
  after_results_simp
  rfl

/-- The targets with the self-loops appended. -/
theorem entry_dst (V : Valuation τ sig (Elt F)) :
    after (hostOps0_2 (F := F)) (after hostOps0_1 (after hostOps0 V)) (Proc.devRef .tc main_v6)
      = Cert.Gcn.withLoops (Cert.Gcn.edgeRow1 (V (Proc.devRef .tc main_arg1))) := by
  dsimp only [hostOps0, hostOps0_1, hostOps0_2]
  after_results_simp
  rfl

/-- The symmetric edge weights. -/
theorem entry_norm (V : Valuation τ sig (Elt F)) :
    after (hostOps0_2 (F := F)) (after hostOps0_1 (after hostOps0 V)) (Proc.devRef .tc main_v29)
      = Cert.Gcn.edgeNorm (Cert.Gcn.invSqrt (Cert.Gcn.degree (Cert.Gcn.withLoops (Cert.Gcn.edgeRow1 (V (Proc.devRef .tc main_arg1))))))
          (Cert.Gcn.withLoops (Cert.Gcn.edgeRow0 (V (Proc.devRef .tc main_arg1)))) (Cert.Gcn.withLoops (Cert.Gcn.edgeRow1 (V (Proc.devRef .tc main_arg1)))) := by
  dsimp only [hostOps0, hostOps0_1, hostOps0_2]
  after_results_simp
  rfl

theorem entry_arg0 (V : Valuation τ sig (Elt F)) :
    after (hostOps0_2 (F := F)) (after hostOps0_1 (after hostOps0 V)) (Proc.devRef .tc main_arg0) = V (Proc.devRef .tc main_arg0) :=
  (by not_written hostOps0_2 : after (hostOps0_2 (F := F)) (after hostOps0_1 (after hostOps0 V)) (Proc.devRef .tc main_arg0) = after hostOps0_1 (after hostOps0 V) (Proc.devRef .tc main_arg0)).trans
    ((by not_written hostOps0_1 : after (hostOps0_1 (F := F)) (after hostOps0 V) (Proc.devRef .tc main_arg0) = after hostOps0 V (Proc.devRef .tc main_arg0)).trans
      (by not_written hostOps0 : after (hostOps0 (F := F)) V (Proc.devRef .tc main_arg0) = V (Proc.devRef .tc main_arg0)))

theorem entry_arg2 (V : Valuation τ sig (Elt F)) :
    after (hostOps0_2 (F := F)) (after hostOps0_1 (after hostOps0 V)) (Proc.devRef .tc main_arg2) = V (Proc.devRef .tc main_arg2) :=
  (by not_written hostOps0_2 : after (hostOps0_2 (F := F)) (after hostOps0_1 (after hostOps0 V)) (Proc.devRef .tc main_arg2) = after hostOps0_1 (after hostOps0 V) (Proc.devRef .tc main_arg2)).trans
    ((by not_written hostOps0_1 : after (hostOps0_1 (F := F)) (after hostOps0 V) (Proc.devRef .tc main_arg2) = after hostOps0 V (Proc.devRef .tc main_arg2)).trans
      (by not_written hostOps0 : after (hostOps0 (F := F)) V (Proc.devRef .tc main_arg2) = V (Proc.devRef .tc main_arg2)))

theorem entry_arg3 (V : Valuation τ sig (Elt F)) :
    after (hostOps0_2 (F := F)) (after hostOps0_1 (after hostOps0 V)) (Proc.devRef .tc main_arg3) = V (Proc.devRef .tc main_arg3) :=
  (by not_written hostOps0_2 : after (hostOps0_2 (F := F)) (after hostOps0_1 (after hostOps0 V)) (Proc.devRef .tc main_arg3) = after hostOps0_1 (after hostOps0 V) (Proc.devRef .tc main_arg3)).trans
    ((by not_written hostOps0_1 : after (hostOps0_1 (F := F)) (after hostOps0 V) (Proc.devRef .tc main_arg3) = after hostOps0 V (Proc.devRef .tc main_arg3)).trans
      (by not_written hostOps0 : after (hostOps0 (F := F)) V (Proc.devRef .tc main_arg3) = V (Proc.devRef .tc main_arg3)))

theorem entry_arg4 (V : Valuation τ sig (Elt F)) :
    after (hostOps0_2 (F := F)) (after hostOps0_1 (after hostOps0 V)) (Proc.devRef .tc main_arg4) = V (Proc.devRef .tc main_arg4) :=
  (by not_written hostOps0_2 : after (hostOps0_2 (F := F)) (after hostOps0_1 (after hostOps0 V)) (Proc.devRef .tc main_arg4) = after hostOps0_1 (after hostOps0 V) (Proc.devRef .tc main_arg4)).trans
    ((by not_written hostOps0_1 : after (hostOps0_1 (F := F)) (after hostOps0 V) (Proc.devRef .tc main_arg4) = after hostOps0 V (Proc.devRef .tc main_arg4)).trans
      (by not_written hostOps0 : after (hostOps0 (F := F)) V (Proc.devRef .tc main_arg4) = V (Proc.devRef .tc main_arg4)))

theorem entry_arg5 (V : Valuation τ sig (Elt F)) :
    after (hostOps0_2 (F := F)) (after hostOps0_1 (after hostOps0 V)) (Proc.devRef .tc main_arg5) = V (Proc.devRef .tc main_arg5) :=
  (by not_written hostOps0_2 : after (hostOps0_2 (F := F)) (after hostOps0_1 (after hostOps0 V)) (Proc.devRef .tc main_arg5) = after hostOps0_1 (after hostOps0 V) (Proc.devRef .tc main_arg5)).trans
    ((by not_written hostOps0_1 : after (hostOps0_1 (F := F)) (after hostOps0 V) (Proc.devRef .tc main_arg5) = after hostOps0 V (Proc.devRef .tc main_arg5)).trans
      (by not_written hostOps0 : after (hostOps0 (F := F)) V (Proc.devRef .tc main_arg5) = V (Proc.devRef .tc main_arg5)))

theorem entry_arg6 (V : Valuation τ sig (Elt F)) :
    after (hostOps0_2 (F := F)) (after hostOps0_1 (after hostOps0 V)) (Proc.devRef .tc main_arg6) = V (Proc.devRef .tc main_arg6) :=
  (by not_written hostOps0_2 : after (hostOps0_2 (F := F)) (after hostOps0_1 (after hostOps0 V)) (Proc.devRef .tc main_arg6) = after hostOps0_1 (after hostOps0 V) (Proc.devRef .tc main_arg6)).trans
    ((by not_written hostOps0_1 : after (hostOps0_1 (F := F)) (after hostOps0 V) (Proc.devRef .tc main_arg6) = after hostOps0 V (Proc.devRef .tc main_arg6)).trans
      (by not_written hostOps0 : after (hostOps0 (F := F)) V (Proc.devRef .tc main_arg6) = V (Proc.devRef .tc main_arg6)))

/-! ## Between the first and the second launch -/

/-- The first layer's aggregation of whatever the first launch left. -/
theorem mid_aggregate (V : Valuation τ sig (Elt F)) :
    after (hostOps1 (F := F)) V (Proc.devRef .tc main_v43)
      = Cert.Gcn.aggregateWide (V (Proc.devRef .tc main_v30)) (V (Proc.devRef .tc main_v5)) (V (Proc.devRef .tc main_v6)) (V (Proc.devRef .tc main_v29)) := by
  dsimp only [hostOps1]
  after_results_simp
  rfl

/-- The first bias as one row. -/
theorem mid_bias (V : Valuation τ sig (Elt F)) :
    after (hostOps1 (F := F)) V (Proc.devRef .tc main_v44) = shapeCast S1x64 (V (Proc.devRef .tc main_arg4)) Facts₀.shapeCasts_S64_S1x64 := by
  dsimp only [hostOps1]
  after_results_simp
  rfl

theorem mid_v5 (V : Valuation τ sig (Elt F)) : after (hostOps1 (F := F)) V (Proc.devRef .tc main_v5) = V (Proc.devRef .tc main_v5) := by
  not_written hostOps1

theorem mid_v6 (V : Valuation τ sig (Elt F)) : after (hostOps1 (F := F)) V (Proc.devRef .tc main_v6) = V (Proc.devRef .tc main_v6) := by
  not_written hostOps1

theorem mid_v29 (V : Valuation τ sig (Elt F)) : after (hostOps1 (F := F)) V (Proc.devRef .tc main_v29) = V (Proc.devRef .tc main_v29) := by
  not_written hostOps1

theorem mid_arg2 (V : Valuation τ sig (Elt F)) : after (hostOps1 (F := F)) V (Proc.devRef .tc main_arg2) = V (Proc.devRef .tc main_arg2) := by
  not_written hostOps1

theorem mid_arg5 (V : Valuation τ sig (Elt F)) : after (hostOps1 (F := F)) V (Proc.devRef .tc main_arg5) = V (Proc.devRef .tc main_arg5) := by
  not_written hostOps1

theorem mid_arg6 (V : Valuation τ sig (Elt F)) : after (hostOps1 (F := F)) V (Proc.devRef .tc main_arg6) = V (Proc.devRef .tc main_arg6) := by
  not_written hostOps1

/-! ## After the last launch -/

/-- The result: the second layer's aggregation of whatever the last launch left, plus the bias, at each graph's last node. -/
theorem exit_result (V : Valuation τ sig (Elt F)) :
    after (hostOps3_2 (F := F)) (after hostOps3_1 (after hostOps3 V)) (Proc.devRef .tc main_v76)
      = Cert.Gcn.pick
          (Cert.Gcn.addBias (Cert.Gcn.aggregateThin (V (Proc.devRef .tc main_v46)) (V (Proc.devRef .tc main_v5)) (V (Proc.devRef .tc main_v6)) (V (Proc.devRef .tc main_v29))) (V (Proc.devRef .tc main_arg6)))
          (Cert.Gcn.lastNode (Cert.Gcn.runningSum (Cert.Gcn.graphSizes (V (Proc.devRef .tc main_arg2))))) := by
  dsimp only [hostOps3, hostOps3_1, hostOps3_2]
  after_results_simp
  -- the running sum's called operations carry their operands to the buffers' own types and back: the identity
  simp only [TRef.toBuf, TRef.ofBuf, cast_eq]
  rfl

end Cert.KernelIdeal.Hand

end
-- ==== Proof.KernelValue.lean ====
/-
  What the idealized kernel program leaves in its result buffer, as a function of the argument arrays.

  The program's run ends with every buffer at the fold `W10` of its ten segments over the launch memory. The fold is
  walked segment by segment, keeping at each boundary only what later segments read:
    * at the first launch: the self-looped source and target lists, the edge weights, and the arguments as launched;
    * the first launch replaces its output array by the first layer's product of the features with the first weight
      matrix, and leaves every other buffer;
    * the stretch after it aggregates that product over the graph and lays the first bias out as a row;
    * the second launch leaves the rectified, biased aggregation; the third the product with the second weight matrix;
    * the closing stretches aggregate once more, add the second bias and read each graph's last node.
  A launch's output array is a whole-array function of the arrays it finds (the three hypotheses, proved where the
  launches' blocks are assembled); a launch leaves every buffer that is not one of its arrays, and an input array, as
  it found it. The result is the specification's `gcn` of the arguments.
-/
import proofs.«127868_j79087527789063_1_alg».proof.Proof.Gen.KernelIdeal.Frame
import proofs.«127868_j79087527789063_1_alg».proof.Proof.KernelStages
import Idealize.ShloMosaic.PureOps.Ideal

noncomputable section

namespace Cert.KernelIdeal.Hand

open Idealize.ShloMosaic Idealize.ShloMosaic.TcCoe Idealize.ShloMosaic.StableHlo Idealize.SL.Sem Cert.KernelIdeal Cert.KernelIdeal.Gen

variable [Cert.ReferenceIdeal.Facts]

/-- The result buffer after the run holds the two-layer graph convolution of the argument arrays. -/
theorem result_value
    (hr0 : ∀ (V : (c : Dev nD) → (b : Ref sig .tc) → Buf (Elt Ideal) ((c : Thread nD τ).loc b)) (c : Dev nD),
      (dat0 (F := Ideal) V c).arrAt 2 cfg0.N = Cert.Gcn.productWide (V c main_arg0) (V c main_arg3))
    (hr1 : ∀ (V : (c : Dev nD) → (b : Ref sig .tc) → Buf (Elt Ideal) ((c : Thread nD τ).loc b)) (c : Dev nD)
      (b : (⟨Cert.ReferenceIdeal.S64, .f32⟩ : BufTy).Contents (Elt Ideal)),
      V c main_v44 = shapeCast S1x64 b Facts₀.shapeCasts_S64_S1x64 →
      (dat1 (F := Ideal) V c).arrAt 2 cfg1.N = Cert.Gcn.biasRelu (V c main_v43) b)
    (hr2 : ∀ (V : (c : Dev nD) → (b : Ref sig .tc) → Buf (Elt Ideal) ((c : Thread nD τ).loc b)) (c : Dev nD),
      (dat2 (F := Ideal) V c).arrAt 2 cfg2.N = Cert.Gcn.productThin (V c main_v45) (V c main_arg5))
    (m : (ℓ : Loc nD τ sig) → Buf (Elt Ideal) ℓ) (ρ : Dev nD → PrngReg) (c : Dev nD) :
    W10 (F := Ideal) m ρ c (Proc.devRef .tc main_v76)
      = Cert.Gcn.gcn (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  -- at the first launch
  have a0 : W3 m ρ c (Proc.devRef .tc main_arg0) = (m ((c : Thread nD τ).loc main_arg0)) := entry_arg0 (W0 m ρ c)
  have a2 : W3 m ρ c (Proc.devRef .tc main_arg2) = (m ((c : Thread nD τ).loc main_arg2)) := entry_arg2 (W0 m ρ c)
  have a3 : W3 m ρ c (Proc.devRef .tc main_arg3) = (m ((c : Thread nD τ).loc main_arg3)) := entry_arg3 (W0 m ρ c)
  have a4 : W3 m ρ c (Proc.devRef .tc main_arg4) = (m ((c : Thread nD τ).loc main_arg4)) := entry_arg4 (W0 m ρ c)
  have a5 : W3 m ρ c (Proc.devRef .tc main_arg5) = (m ((c : Thread nD τ).loc main_arg5)) := entry_arg5 (W0 m ρ c)
  have a6 : W3 m ρ c (Proc.devRef .tc main_arg6) = (m ((c : Thread nD τ).loc main_arg6)) := entry_arg6 (W0 m ρ c)
  have s3 : W3 m ρ c (Proc.devRef .tc main_v5) = (Cert.Gcn.withLoops (Cert.Gcn.edgeRow0 (m ((c : Thread nD τ).loc main_arg1)))) := entry_src (W0 m ρ c)
  have d3 : W3 m ρ c (Proc.devRef .tc main_v6) = (Cert.Gcn.withLoops (Cert.Gcn.edgeRow1 (m ((c : Thread nD τ).loc main_arg1)))) := entry_dst (W0 m ρ c)
  have n3 : W3 m ρ c (Proc.devRef .tc main_v29) = (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1))))) := entry_norm (W0 m ρ c)
  -- the first launch: its output array is the product; the other buffers are kept
  have p4 : W4 m ρ c (Proc.devRef .tc main_v30) = (Cert.Gcn.productWide (m ((c : Thread nD τ).loc main_arg0)) (m ((c : Thread nD τ).loc main_arg3))) :=
    (W4_arr m ρ c 2).trans ((hr0 (V3 m ρ) c).trans (by rw [show V3 m ρ c main_arg0 = _ from a0, show V3 m ρ c main_arg3 = _ from a3]))
  have a2' : W4 m ρ c (Proc.devRef .tc main_arg2) = (m ((c : Thread nD τ).loc main_arg2)) := (W4_of_ne m ρ c main_arg2 (by decide)).trans a2
  have a4' : W4 m ρ c (Proc.devRef .tc main_arg4) = (m ((c : Thread nD τ).loc main_arg4)) := (W4_of_ne m ρ c main_arg4 (by decide)).trans a4
  have a5' : W4 m ρ c (Proc.devRef .tc main_arg5) = (m ((c : Thread nD τ).loc main_arg5)) := (W4_of_ne m ρ c main_arg5 (by decide)).trans a5
  have a6' : W4 m ρ c (Proc.devRef .tc main_arg6) = (m ((c : Thread nD τ).loc main_arg6)) := (W4_of_ne m ρ c main_arg6 (by decide)).trans a6
  have s4 : W4 m ρ c (Proc.devRef .tc main_v5) = (Cert.Gcn.withLoops (Cert.Gcn.edgeRow0 (m ((c : Thread nD τ).loc main_arg1)))) := (W4_of_ne m ρ c main_v5 (by decide)).trans s3
  have d4 : W4 m ρ c (Proc.devRef .tc main_v6) = (Cert.Gcn.withLoops (Cert.Gcn.edgeRow1 (m ((c : Thread nD τ).loc main_arg1)))) := (W4_of_ne m ρ c main_v6 (by decide)).trans d3
  have n4 : W4 m ρ c (Proc.devRef .tc main_v29) = (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1))))) := (W4_of_ne m ρ c main_v29 (by decide)).trans n3
  -- the stretch between the launches
  have g5 : W5 m ρ c (Proc.devRef .tc main_v43) = (Cert.Gcn.aggregateWide (Cert.Gcn.productWide (m ((c : Thread nD τ).loc main_arg0)) (m ((c : Thread nD τ).loc main_arg3))) (Cert.Gcn.withLoops (Cert.Gcn.edgeRow0 (m ((c : Thread nD τ).loc main_arg1)))) (Cert.Gcn.withLoops (Cert.Gcn.edgeRow1 (m ((c : Thread nD τ).loc main_arg1)))) (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1)))))) :=
    (mid_aggregate (W4 m ρ c)).trans (by rw [p4, s4, d4, n4])
  have b5 : W5 m ρ c (Proc.devRef .tc main_v44) = shapeCast S1x64 (m ((c : Thread nD τ).loc main_arg4)) Facts₀.shapeCasts_S64_S1x64 :=
    (mid_bias (W4 m ρ c)).trans (by rw [a4'])
  have a2'' : W5 m ρ c (Proc.devRef .tc main_arg2) = (m ((c : Thread nD τ).loc main_arg2)) := (mid_arg2 (W4 m ρ c)).trans a2'
  have a5'' : W5 m ρ c (Proc.devRef .tc main_arg5) = (m ((c : Thread nD τ).loc main_arg5)) := (mid_arg5 (W4 m ρ c)).trans a5'
  have a6'' : W5 m ρ c (Proc.devRef .tc main_arg6) = (m ((c : Thread nD τ).loc main_arg6)) := (mid_arg6 (W4 m ρ c)).trans a6'
  have s5 : W5 m ρ c (Proc.devRef .tc main_v5) = (Cert.Gcn.withLoops (Cert.Gcn.edgeRow0 (m ((c : Thread nD τ).loc main_arg1)))) := (mid_v5 (W4 m ρ c)).trans s4
  have d5 : W5 m ρ c (Proc.devRef .tc main_v6) = (Cert.Gcn.withLoops (Cert.Gcn.edgeRow1 (m ((c : Thread nD τ).loc main_arg1)))) := (mid_v6 (W4 m ρ c)).trans d4
  have n5 : W5 m ρ c (Proc.devRef .tc main_v29) = (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1))))) := (mid_v29 (W4 m ρ c)).trans n4
  -- the second launch
  have h6 : W6 m ρ c (Proc.devRef .tc main_v45) = (Cert.Gcn.biasRelu (Cert.Gcn.aggregateWide (Cert.Gcn.productWide (m ((c : Thread nD τ).loc main_arg0)) (m ((c : Thread nD τ).loc main_arg3))) (Cert.Gcn.withLoops (Cert.Gcn.edgeRow0 (m ((c : Thread nD τ).loc main_arg1)))) (Cert.Gcn.withLoops (Cert.Gcn.edgeRow1 (m ((c : Thread nD τ).loc main_arg1)))) (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1)))))) (m ((c : Thread nD τ).loc main_arg4))) :=
    (W6_arr m ρ c 2).trans ((hr1 (V5 m ρ) c (m ((c : Thread nD τ).loc main_arg4)) b5).trans (by rw [show V5 m ρ c main_v43 = _ from g5]))
  have a2₆ : W6 m ρ c (Proc.devRef .tc main_arg2) = (m ((c : Thread nD τ).loc main_arg2)) := (W6_of_ne m ρ c main_arg2 (by decide)).trans a2''
  have a5₆ : W6 m ρ c (Proc.devRef .tc main_arg5) = (m ((c : Thread nD τ).loc main_arg5)) := (W6_of_ne m ρ c main_arg5 (by decide)).trans a5''
  have a6₆ : W6 m ρ c (Proc.devRef .tc main_arg6) = (m ((c : Thread nD τ).loc main_arg6)) := (W6_of_ne m ρ c main_arg6 (by decide)).trans a6''
  have s6 : W6 m ρ c (Proc.devRef .tc main_v5) = (Cert.Gcn.withLoops (Cert.Gcn.edgeRow0 (m ((c : Thread nD τ).loc main_arg1)))) := (W6_of_ne m ρ c main_v5 (by decide)).trans s5
  have d6 : W6 m ρ c (Proc.devRef .tc main_v6) = (Cert.Gcn.withLoops (Cert.Gcn.edgeRow1 (m ((c : Thread nD τ).loc main_arg1)))) := (W6_of_ne m ρ c main_v6 (by decide)).trans d5
  have n6 : W6 m ρ c (Proc.devRef .tc main_v29) = (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1))))) := (W6_of_ne m ρ c main_v29 (by decide)).trans n5
  -- the third launch
  have p7 : W7 m ρ c (Proc.devRef .tc main_v46) = (Cert.Gcn.productThin (Cert.Gcn.biasRelu (Cert.Gcn.aggregateWide (Cert.Gcn.productWide (m ((c : Thread nD τ).loc main_arg0)) (m ((c : Thread nD τ).loc main_arg3))) (Cert.Gcn.withLoops (Cert.Gcn.edgeRow0 (m ((c : Thread nD τ).loc main_arg1)))) (Cert.Gcn.withLoops (Cert.Gcn.edgeRow1 (m ((c : Thread nD τ).loc main_arg1)))) (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1)))))) (m ((c : Thread nD τ).loc main_arg4))) (m ((c : Thread nD τ).loc main_arg5))) :=
    (W7_arr m ρ c 2).trans ((hr2 (V6 m ρ) c).trans (by rw [show V6 m ρ c main_v45 = _ from h6, show V6 m ρ c main_arg5 = _ from a5₆]))
  have a2₇ : W7 m ρ c (Proc.devRef .tc main_arg2) = (m ((c : Thread nD τ).loc main_arg2)) := (W7_of_ne m ρ c main_arg2 (by decide)).trans a2₆
  have a6₇ : W7 m ρ c (Proc.devRef .tc main_arg6) = (m ((c : Thread nD τ).loc main_arg6)) := (W7_of_ne m ρ c main_arg6 (by decide)).trans a6₆
  have s7 : W7 m ρ c (Proc.devRef .tc main_v5) = (Cert.Gcn.withLoops (Cert.Gcn.edgeRow0 (m ((c : Thread nD τ).loc main_arg1)))) := (W7_of_ne m ρ c main_v5 (by decide)).trans s6
  have d7 : W7 m ρ c (Proc.devRef .tc main_v6) = (Cert.Gcn.withLoops (Cert.Gcn.edgeRow1 (m ((c : Thread nD τ).loc main_arg1)))) := (W7_of_ne m ρ c main_v6 (by decide)).trans d6
  have n7 : W7 m ρ c (Proc.devRef .tc main_v29) = (Cert.Gcn.edgeNorm (Cert.Gcn.invSqrt (Cert.Gcn.degree (Cert.Gcn.withLoops (Cert.Gcn.edgeRow1 (m ((c : Thread nD τ).loc main_arg1)))))) (Cert.Gcn.withLoops (Cert.Gcn.edgeRow0 (m ((c : Thread nD τ).loc main_arg1)))) (Cert.Gcn.withLoops (Cert.Gcn.edgeRow1 (m ((c : Thread nD τ).loc main_arg1))))) := (W7_of_ne m ρ c main_v29 (by decide)).trans n6
  -- the closing stretches
  refine (exit_result (W7 m ρ c)).trans ?_
  rw [p7, s7, d7, n7, a6₇, a2₇]
  rfl

end Cert.KernelIdeal.Hand

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.RegionValue0.lean ====
/-
  The first layer's matrix product, block by block.

  The node features form a 100000 x 128 array and the first layer's weights a 128 x 64 array. The grid has ten
  points; point `t` is handed the block of rows 10000 t .. 10000 t + 9999 of the features (all 128 columns), the
  whole weight array, and writes back rows 10000 t .. 10000 t + 9999 of a 100000 x 64 array. A block is a contiguous
  rectangle of an array: its element at (p, k) is the array's element at (block index x block rows + p, k).

  At a point, the body rounds both operands to bf16 and multiplies them on the matrix unit into a zero accumulator. On
  the extended reals a rounding is the identity, so entry (p, q) of what the point writes is the exact sum over k of
  block(p, k) * weights(k, q), which is entry (10000 t + p, q) of the product of the two whole arrays: that entry
  depends on row 10000 t + p of the features only, and this row lies in the block of point t. Every row r of the
  result lies in the block of exactly the point r / 10000, so the ten write-backs together leave the whole product.
-/
import proofs.«127868_j79087527789063_1_alg».proof.Proof.Gen.KernelIdeal.Frame
import proofs.«127868_j79087527789063_1_alg».proof.Proof.GcnSpec
import proofs.«127868_j79087527789063_1_alg».proof.Proof.LibPlainMatmul
import proofs.«127868_j79087527789063_1_alg».proof.Proof.LibPlainDotGeneral
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offsets of a whole-buffer access, as a constant function. -/
theorem zeros2_0 : (![0, 0] : Fin 2 → Nat) = fun _ => 0 := funext fun a => by fin_cases a <;> rfl

/-! ## One point's product at a row and a column -/

/-- Rounding to bf16 is the identity on the extended reals, so the body's value at `(p, q)` is the exact sum of
    products along row `p` of the left block and column `q` of the right one. -/
theorem blockProduct0_apply (x : Vec Ideal S10000x128 .f32) (w : Vec Ideal S128x64 .f32) (p : Fin 10000) (q : Fin 64) :
    k0_pay1 x w (ix2 p q) = ∑ k : Fin 128, x (ix2 p k) * w (ix2 k q) := by
  unfold k0_pay1
  exact Cert.Lib.PlainMatmul.matmul_zero_apply dot_S10000x128_S128x64_S10000x64_1_0_0_1_n_n rfl rfl rfl rfl rfl rfl none
    (truncf .bf16 x bitsLt_bf16_f32) (truncf .bf16 w bitsLt_bf16_f32) p q

/-- The whole product at `(r, q)`: the sum of products along row `r` and column `q`. -/
theorem productWide_apply (X : (⟨Cert.ReferenceIdeal.S100000x128, .f32⟩ : BufTy).Contents (Elt Ideal))
    (W : (⟨Cert.ReferenceIdeal.S128x64, .f32⟩ : BufTy).Contents (Elt Ideal)) (r : Fin 100000) (q : Fin 64) :
    Cert.Gcn.productWide X W (ix2 r q) = ∑ k : Fin 128, X (ix2 r k) * W (ix2 k q) := by
  unfold Cert.Gcn.productWide
  exact Cert.Lib.PlainDotGeneral.dotGeneral_apply Cert.ReferenceIdeal.dot_S100000x128_S128x64_S100000x64_1_0_0_1_n_n
    rfl rfl rfl rfl rfl rfl none .single X W r q

/-- A block whose row `p` is row `r` of the array, against the whole right operand: the block's product at
    `(p, q)` is the whole product at `(r, q)`. -/
theorem blockProduct0_eq (x : Vec Ideal S10000x128 .f32) (w : Vec Ideal S128x64 .f32)
    (X : (⟨Cert.ReferenceIdeal.S100000x128, .f32⟩ : BufTy).Contents (Elt Ideal))
    (W : (⟨Cert.ReferenceIdeal.S128x64, .f32⟩ : BufTy).Contents (Elt Ideal))
    (r : Fin 100000) (p : Fin 10000) (q : Fin 64)
    (hx : ∀ k : Fin 128, x (ix2 p k) = X (ix2 r k)) (hw : ∀ k : Fin 128, w (ix2 k q) = W (ix2 k q)) :
    k0_pay1 x w (ix2 p q) = Cert.Gcn.productWide X W (ix2 r q) := by
  rw [blockProduct0_apply, productWide_apply]
  exact Finset.sum_congr rfl fun k _ => by rw [hx k, hw k]

/-! ## Where the blocks of a point sit -/

/-- The printed index maps over the ten points: the left operand's block moves with the result's along the rows and
    stays at column block 0; the right operand is always its one block; the result's row block is one of 0 .. 9. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the result is some point's. -/
theorem index_onto0 : ∀ b : Fin 10, ∃ t : Fin cfg0.N, win0_2.index t = ![b.val, 0] :=
  (by decide +kernel : ∀ b : Fin 10, ∃ t : Fin grid0.N, win0_2.index t = ![b.val, 0])

/-- The array row that row `p` of point `t`'s blocks is. -/
def row0 (t : Fin cfg0.N) (p : Fin 10000) : Fin 100000 :=
  ⟨win0_2.index t (0 : Fin 2) * 10000 + p.val, by
    obtain ⟨_, _, _, _, h, _⟩ := index_facts0 t
    have := p.isLt
    omega⟩

/-- Element `(p, q)` of the result's block at `t` is the array's `(row0 t p, q)`. -/
theorem emb0_out (t : Fin cfg0.N) (p : Fin 10000) (q : Fin 64) :
    ((cfg0.win 2).blk t).view.emb (ix2 p q) = ix2 (row0 t p) q := by
  obtain ⟨e0, e1, e2, e3, e4, e5⟩ := index_facts0 t
  funext a; apply Fin.ext
  match a with
  | ⟨0, _⟩ => show win0_2.index t (0 : Fin 2) * 10000 + 1 * p.val = win0_2.index t (0 : Fin 2) * 10000 + p.val; omega
  | ⟨1, _⟩ => show win0_2.index t (1 : Fin 2) * 64 + 1 * q.val = q.val; omega

/-- Element `(p, k)` of the left operand's block at `t` is the array's `(row0 t p, k)`. -/
theorem emb0_lhs (t : Fin cfg0.N) (p : Fin 10000) (k : Fin 128) :
    ((cfg0.win 0).blk t).view.emb (ix2 p k) = ix2 (row0 t p) k := by
  obtain ⟨e0, e1, e2, e3, e4, e5⟩ := index_facts0 t
  funext a; apply Fin.ext
  match a with
  | ⟨0, _⟩ => show win0_0.index t (0 : Fin 2) * 10000 + 1 * p.val = win0_2.index t (0 : Fin 2) * 10000 + p.val; omega
  | ⟨1, _⟩ => show win0_0.index t (1 : Fin 2) * 128 + 1 * k.val = k.val; omega

/-- The right operand's one block is the whole array. -/
theorem emb0_rhs (t : Fin cfg0.N) (k : Fin 128) (q : Fin 64) :
    ((cfg0.win 1).blk t).view.emb (ix2 k q) = ix2 k q := by
  obtain ⟨e0, e1, e2, e3, e4, e5⟩ := index_facts0 t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

variable (V : (c : Dev nD) → (b : Ref sig .tc) → Buf (Elt Ideal) ((c : Thread nD τ).loc b))

/-! ## What a point writes back -/

/-- Point `t` writes back block `t` of the whole product of the two arrays as the region finds them. -/
theorem flushed0_eq (c : Dev nD) (t : Fin cfg0.N) :
    (dat0 (F := Ideal) V c).flushed 2 t
      = ((cfg0.win 2).blk t).view.read (Elt Ideal) (Cert.Gcn.productWide (V c main_arg0) (V c main_arg3)) := by
  show (cfg0.win 2).cut (grid0.coords t) ((dat0 (F := Ideal) V c).after 2 t) = _
  rw [after0_2]
  unfold out0_2
  rw [View.canon_unit_zero zeros2_0]
  simp only [View.ld_unit_zero (S := S10000x128) zeros2_0, View.ld_unit_zero (S := S128x64) zeros2_0]
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Gcn.productWide (V c main_arg0) (V c main_arg3) (((cfg0.win 2).blk t).view.emb (ix2 p q))
  rw [emb0_out t p q]
  refine blockProduct0_eq _ _ _ _ (row0 t p) p q (fun k => ?_) (fun k => ?_)
  · show V c main_arg0 (((cfg0.win 0).blk t).view.emb (ix2 p k)) = V c main_arg0 (ix2 (row0 t p) k)
    rw [emb0_lhs t p k]
  · show V c main_arg3 (((cfg0.win 1).blk t).view.emb (ix2 k q)) = V c main_arg3 (ix2 k q)
    rw [emb0_rhs t k q]

/-! ## The blocks cover the array -/

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the result lies in the block of the point whose row block is `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-! ## The array after the region -/

/-- After the ten points the result array holds the product of the two arrays the region found. -/
theorem region0_array (c : Dev nD) :
    (Cert.KernelIdeal.Gen.dat0 (F := Ideal) V c).arrAt 2 Cert.KernelIdeal.cfg0.N
      = Cert.Gcn.productWide (V c Cert.KernelIdeal.main_arg0) (V c Cert.KernelIdeal.main_arg3) :=
  (dat0 (F := Ideal) V c).arrAt_eq_of_cover 2 (Cert.Gcn.productWide (V c main_arg0) (V c main_arg3))
    (fun t _ => flushed0_eq V c t) cover0

end Cert.KernelIdeal.Regions

end
-- ==== Proof.RegionValue1.lean ====
/-
  The first layer's bias and rectifier, block by block.

  The aggregated features form a 100000 x 64 array and the bias, a vector of 64 numbers, arrives reshaped as a
  1 x 64 array. The grid has ten points; point `t` is handed the block of rows 10000 t .. 10000 t + 9999 of the
  features (all 64 columns), the whole 1 x 64 bias, and writes back rows 10000 t .. 10000 t + 9999 of a
  100000 x 64 array. A block is a contiguous rectangle of an array: its element at (p, q) is the array's element at
  (block index x block rows + p, q).

  At a point, the body reshapes each operand to its own shape (which changes nothing), repeats the bias row along the
  10000 rows, adds, and takes the maximum with the constant whose bits are all zero. So entry (p, q) of what the
  point writes is max (block(p, q) + bias(q), that constant), and it depends on entry (10000 t + p, q) of the features
  and entry q of the bias only. The whole-array function does the same at (r, q) — the bias is first laid out as a
  1 x 64 array and then repeated along the 100000 rows, which reads bias(q) at every row — with the same constant,
  never evaluated here. Every row r of the result lies in the block of exactly the point r / 10000, so the ten
  write-backs together leave the whole array.
-/
import proofs.«127868_j79087527789063_1_alg».proof.Proof.Gen.KernelIdeal.Frame
import proofs.«127868_j79087527789063_1_alg».proof.Proof.GcnSpec
import proofs.«127868_j79087527789063_1_alg».proof.Proof.LibPlainMatmul
import proofs.«127868_j79087527789063_1_alg».proof.Proof.LibPlainDotGeneral
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offsets of a whole-buffer access, as a constant function. -/
theorem zeros2_1 : (![0, 0] : Fin 2 → Nat) = fun _ => 0 := funext fun a => by fin_cases a <;> rfl

/-! ## One point's value at a row and a column -/

/-- The body's value at `(p, q)`: the two reshapes are to the operands' own shapes, and the bias row repeated along the
    rows reads the row's entry `q` at every `p`. -/
theorem blockBiasRelu_apply (b1 : Vec Ideal S1x64 .f32) (x : Vec Ideal S10000x64 .f32) (p : Fin 10000) (q : Fin 64) :
    k1_pay1 b1 x (ix2 p q) = max (x (ix2 p q) + b1 (ix2 (0 : Fin 1) q)) (Ideal.ofBits .f32 0x00000000#32) := by
  show max (shapeCast S10000x64 x shapeCasts_S10000x64_S10000x64 (ix2 p q)
      + broadcastTo S10000x64 (shapeCast S1x64 (shapeCast S1x64 b1 shapeCasts_S1x64_S1x64) shapeCasts_S1x64_S1x64)
          broadcasts_S1x64_S10000x64 (ix2 p q))
    (Ideal.ofBits .f32 0x00000000#32) = _
  rw [shapeCast_self, shapeCast_self, shapeCast_self, broadcastTo_1b_ab_apply]

/-- The bias laid out as a `1 x 64` array and repeated along the `100000` rows reads, at `(r, q)`, its entry `q`. -/
theorem biasRows_apply (b : (⟨Cert.ReferenceIdeal.S64, .f32⟩ : BufTy).Contents (Elt Ideal)) (r : Fin 100000) (q : Fin 64) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) (ix2 r q) = b (ix1 q) := by
  refine (broadcastInDim_apply _ _ _ (ix2 r q) (ix2 (0 : Fin 1) q) fun ax => ?_).trans ?_
  · match ax with
    | ⟨0, _⟩ => rfl
    | ⟨1, _⟩ => rfl
  · refine broadcastInDim_apply _ _ _ (ix2 (0 : Fin 1) q) (ix1 q) fun ax => ?_
    match ax with
    | ⟨0, _⟩ => rfl

/-- The whole-array function at `(r, q)`. -/
theorem biasRelu_apply (A : (⟨Cert.ReferenceIdeal.S100000x64, .f32⟩ : BufTy).Contents (Elt Ideal))
    (b : (⟨Cert.ReferenceIdeal.S64, .f32⟩ : BufTy).Contents (Elt Ideal)) (r : Fin 100000) (q : Fin 64) :
    Cert.Gcn.biasRelu A b (ix2 r q) = max (A (ix2 r q) + b (ix1 q)) (Ideal.ofBits .f32 0x00000000#32) := by
  unfold Cert.Gcn.biasRelu
  show max (A (ix2 r q)
      + broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b) (ix2 r q))
    (Ideal.ofBits .f32 0x00000000#32) = _
  rw [biasRows_apply]

/-- A block whose entry `(p, q)` is entry `(r, q)` of the array, against a `1 x 64` row whose entry `q` is the
    bias's: the block's value at `(p, q)` is the whole-array function's at `(r, q)`. -/
theorem blockBiasRelu_eq (b1 : Vec Ideal S1x64 .f32) (x : Vec Ideal S10000x64 .f32)
    (A : (⟨Cert.ReferenceIdeal.S100000x64, .f32⟩ : BufTy).Contents (Elt Ideal))
    (b : (⟨Cert.ReferenceIdeal.S64, .f32⟩ : BufTy).Contents (Elt Ideal))
    (r : Fin 100000) (p : Fin 10000) (q : Fin 64)
    (hx : x (ix2 p q) = A (ix2 r q)) (hb : b1 (ix2 (0 : Fin 1) q) = b (ix1 q)) :
    k1_pay1 b1 x (ix2 p q) = Cert.Gcn.biasRelu A b (ix2 r q) := by
  rw [blockBiasRelu_apply, biasRelu_apply, hx, hb]

/-! ## Where the blocks of a point sit -/

/-- The printed index maps over the ten points: the features' block moves with the result's along the rows and stays
    at column block 0; the bias is always its one block; the result's row block is one of 0 .. 9. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every row block of the result is some point's. -/
theorem index_onto1 : ∀ b : Fin 10, ∃ t : Fin cfg1.N, win1_2.index t = ![b.val, 0] :=
  (by decide +kernel : ∀ b : Fin 10, ∃ t : Fin grid1.N, win1_2.index t = ![b.val, 0])

/-- The array row that row `p` of point `t`'s blocks is. -/
def row1 (t : Fin cfg1.N) (p : Fin 10000) : Fin 100000 :=
  ⟨win1_2.index t (0 : Fin 2) * 10000 + p.val, by
    obtain ⟨_, _, _, _, h, _⟩ := index_facts1 t
    have := p.isLt
    omega⟩

/-- Element `(p, q)` of the result's block at `t` is the array's `(row1 t p, q)`. -/
theorem emb1_out (t : Fin cfg1.N) (p : Fin 10000) (q : Fin 64) :
    ((cfg1.win 2).blk t).view.emb (ix2 p q) = ix2 (row1 t p) q := by
  obtain ⟨e0, e1, e2, e3, e4, e5⟩ := index_facts1 t
  funext a; apply Fin.ext
  match a with
  | ⟨0, _⟩ => show win1_2.index t (0 : Fin 2) * 10000 + 1 * p.val = win1_2.index t (0 : Fin 2) * 10000 + p.val; omega
  | ⟨1, _⟩ => show win1_2.index t (1 : Fin 2) * 64 + 1 * q.val = q.val; omega

/-- Element `(p, q)` of the features' block at `t` is the array's `(row1 t p, q)`. -/
theorem emb1_in (t : Fin cfg1.N) (p : Fin 10000) (q : Fin 64) :
    ((cfg1.win 0).blk t).view.emb (ix2 p q) = ix2 (row1 t p) q := by
  obtain ⟨e0, e1, e2, e3, e4, e5⟩ := index_facts1 t
  funext a; apply Fin.ext
  match a with
  | ⟨0, _⟩ => show win1_0.index t (0 : Fin 2) * 10000 + 1 * p.val = win1_2.index t (0 : Fin 2) * 10000 + p.val; omega
  | ⟨1, _⟩ => show win1_0.index t (1 : Fin 2) * 64 + 1 * q.val = q.val; omega

/-- The bias's one block is the whole `1 x 64` array. -/
theorem emb1_bias (t : Fin cfg1.N) (u : Fin 1) (q : Fin 64) :
    ((cfg1.win 1).blk t).view.emb (ix2 u q) = ix2 u q := by
  obtain ⟨e0, e1, e2, e3, e4, e5⟩ := index_facts1 t
  funext a; apply Fin.ext
  match a with
  | ⟨0, _⟩ => show win1_1.index t (0 : Fin 2) * 1 + 1 * u.val = u.val; omega
  | ⟨1, _⟩ => show win1_1.index t (1 : Fin 2) * 64 + 1 * q.val = q.val; omega

variable (V : (c : Dev nD) → (b : Ref sig .tc) → Buf (Elt Ideal) ((c : Thread nD τ).loc b))

/-! ## What a point writes back -/

/-- Point `t` writes back block `t` of the whole-array function of the features as the region finds them and of the
    bias, when the `1 x 64` array the region finds is that bias reshaped. -/
theorem flushed1_eq (c : Dev nD) (b : (⟨Cert.ReferenceIdeal.S64, .f32⟩ : BufTy).Contents (Elt Ideal))
    (hb : V c Cert.KernelIdeal.main_v44 = shapeCast Cert.KernelIdeal.S1x64 b Cert.KernelIdeal.Facts₀.shapeCasts_S64_S1x64)
    (t : Fin cfg1.N) :
    (dat1 (F := Ideal) V c).flushed 2 t
      = ((cfg1.win 2).blk t).view.read (Elt Ideal) (Cert.Gcn.biasRelu (V c main_v43) b) := by
  show (cfg1.win 2).cut (grid1.coords t) ((dat1 (F := Ideal) V c).after 2 t) = _
  rw [after1_2]
  unfold out1_2
  rw [View.canon_unit_zero zeros2_1]
  simp only [View.ld_unit_zero (S := S1x64) zeros2_1, View.ld_unit_zero (S := S10000x64) zeros2_1]
  funext j
  obtain ⟨p, q, rfl⟩ : ∃ (p : Fin 10000) (q : Fin 64), j = ix2 p q := ⟨j 0, j 1, eq_ix2 j⟩
  show k1_pay1 (iblk1 V c 1 t) (iblk1 V c 0 t) (ix2 p q)
    = Cert.Gcn.biasRelu (V c main_v43) b (((cfg1.win 2).blk t).view.emb (ix2 p q))
  rw [emb1_out t p q]
  refine blockBiasRelu_eq _ _ _ _ (row1 t p) p q ?_ ?_
  · show V c main_v43 (((cfg1.win 0).blk t).view.emb (ix2 p q)) = V c main_v43 (ix2 (row1 t p) q)
    rw [emb1_in t p q]
  · show V c main_v44 (((cfg1.win 1).blk t).view.emb (ix2 (0 : Fin 1) q)) = b (ix1 q)
    rw [emb1_bias t 0 q, hb]
    exact shapeCast_a_1a_apply b _ 0 q

/-! ## The blocks cover the array -/

/-- An index of the array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the result lies in the block of the point whose row block is `r / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-! ## The array after the region -/

/-- After the ten points the result array holds the bias-and-rectifier of the features the region found, when the
    `1 x 64` array it found is the bias reshaped. -/
theorem region1_array (c : Dev nD) (b : (⟨Cert.ReferenceIdeal.S64, .f32⟩ : BufTy).Contents (Elt Ideal))
    (hb : V c Cert.KernelIdeal.main_v44 = shapeCast Cert.KernelIdeal.S1x64 b Cert.KernelIdeal.Facts₀.shapeCasts_S64_S1x64) :
    (Cert.KernelIdeal.Gen.dat1 (F := Ideal) V c).arrAt 2 Cert.KernelIdeal.cfg1.N
      = Cert.Gcn.biasRelu (V c Cert.KernelIdeal.main_v43) b :=
  (dat1 (F := Ideal) V c).arrAt_eq_of_cover 2 (Cert.Gcn.biasRelu (V c main_v43) b)
    (fun t _ => flushed1_eq V c b hb t) cover1

end Cert.KernelIdeal.Regions

end
-- ==== Proof.RegionValue2.lean ====
/-
  The second layer's matrix product, block by block.

  The hidden features form a 100000 x 64 array and the second layer's weights a 64 x 1 array. The grid has ten
  points; point `t` is handed the block of rows 10000 t .. 10000 t + 9999 of the hidden features (all 64 columns),
  the whole weight column, and writes back rows 10000 t .. 10000 t + 9999 of a 100000 x 1 array. A block is a
  contiguous rectangle of an array: its element at (p, k) is the array's element at (block index x block rows + p, k).

  At a point, the body reshapes the left block to its own shape (which changes nothing), rounds both operands to bf16
  and multiplies them on the matrix unit into a zero accumulator. On the extended reals a rounding is the identity,
  so entry (p, 0) of what the point writes is the exact sum over k of block(p, k) * weights(k, 0), which is entry
  (10000 t + p, 0) of the product of the two whole arrays: that entry depends on row 10000 t + p of the hidden
  features only, and this row lies in the block of point t. Every row r of the result lies in the block of exactly
  the point r / 10000, so the ten write-backs together leave the whole product.
-/
import proofs.«127868_j79087527789063_1_alg».proof.Proof.Gen.KernelIdeal.Frame
import proofs.«127868_j79087527789063_1_alg».proof.Proof.GcnSpec
import proofs.«127868_j79087527789063_1_alg».proof.Proof.LibPlainMatmul
import proofs.«127868_j79087527789063_1_alg».proof.Proof.LibPlainDotGeneral
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The zero offsets of a whole-buffer access, as a constant function. -/
theorem zeros2_2 : (![0, 0] : Fin 2 → Nat) = fun _ => 0 := funext fun a => by fin_cases a <;> rfl

/-! ## One point's product at a row and a column -/

/-- A reshape to the same shape and a rounding to bf16 are both the identity on the extended reals, so the body's
    value at `(p, q)` is the exact sum of products along row `p` of the left block and column `q` of the right one. -/
theorem blockProduct2_apply (x : Vec Ideal S10000x64 .f32) (w : Vec Ideal S64x1 .f32) (p : Fin 10000) (q : Fin 1) :
    k2_pay1 x w (ix2 p q) = ∑ k : Fin 64, x (ix2 p k) * w (ix2 k q) := by
  unfold k2_pay1
  rw [shapeCast_self]
  exact Cert.Lib.PlainMatmul.matmul_zero_apply dot_S10000x64_S64x1_S10000x1_1_0_0_1_n_n rfl rfl rfl rfl rfl rfl none
    (truncf .bf16 x bitsLt_bf16_f32) (truncf .bf16 w bitsLt_bf16_f32) p q

/-- The whole product at `(r, q)`: the sum of products along row `r` and column `q`. -/
theorem productThin_apply (X : (⟨Cert.ReferenceIdeal.S100000x64, .f32⟩ : BufTy).Contents (Elt Ideal))
    (W : (⟨Cert.ReferenceIdeal.S64x1, .f32⟩ : BufTy).Contents (Elt Ideal)) (r : Fin 100000) (q : Fin 1) :
    Cert.Gcn.productThin X W (ix2 r q) = ∑ k : Fin 64, X (ix2 r k) * W (ix2 k q) := by
  unfold Cert.Gcn.productThin
  exact Cert.Lib.PlainDotGeneral.dotGeneral_apply Cert.ReferenceIdeal.dot_S100000x64_S64x1_S100000x1_1_0_0_1_n_n
    rfl rfl rfl rfl rfl rfl none .single X W r q

/-- A block whose row `p` is row `r` of the array, against the whole right operand: the block's product at
    `(p, q)` is the whole product at `(r, q)`. -/
theorem blockProduct2_eq (x : Vec Ideal S10000x64 .f32) (w : Vec Ideal S64x1 .f32)
    (X : (⟨Cert.ReferenceIdeal.S100000x64, .f32⟩ : BufTy).Contents (Elt Ideal))
    (W : (⟨Cert.ReferenceIdeal.S64x1, .f32⟩ : BufTy).Contents (Elt Ideal))
    (r : Fin 100000) (p : Fin 10000) (q : Fin 1)
    (hx : ∀ k : Fin 64, x (ix2 p k) = X (ix2 r k)) (hw : ∀ k : Fin 64, w (ix2 k q) = W (ix2 k q)) :
    k2_pay1 x w (ix2 p q) = Cert.Gcn.productThin X W (ix2 r q) := by
  rw [blockProduct2_apply, productThin_apply]
  exact Finset.sum_congr rfl fun k _ => by rw [hx k, hw k]

/-! ## Where the blocks of a point sit -/

/-- The printed index maps over the ten points: the left operand's block moves with the result's along the rows and
    stays at column block 0; the right operand is always its one block; the result's row block is one of 0 .. 9. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row block of the result is some point's. -/
theorem index_onto2 : ∀ b : Fin 10, ∃ t : Fin cfg2.N, win2_2.index t = ![b.val, 0] :=
  (by decide +kernel : ∀ b : Fin 10, ∃ t : Fin grid2.N, win2_2.index t = ![b.val, 0])

/-- The array row that row `p` of point `t`'s blocks is. -/
def row2 (t : Fin cfg2.N) (p : Fin 10000) : Fin 100000 :=
  ⟨win2_2.index t (0 : Fin 2) * 10000 + p.val, by
    obtain ⟨_, _, _, _, h, _⟩ := index_facts2 t
    have := p.isLt
    omega⟩

/-- Element `(p, q)` of the result's block at `t` is the array's `(row2 t p, q)`. -/
theorem emb2_out (t : Fin cfg2.N) (p : Fin 10000) (q : Fin 1) :
    ((cfg2.win 2).blk t).view.emb (ix2 p q) = ix2 (row2 t p) q := by
  obtain ⟨e0, e1, e2, e3, e4, e5⟩ := index_facts2 t
  funext a; apply Fin.ext
  match a with
  | ⟨0, _⟩ => show win2_2.index t (0 : Fin 2) * 10000 + 1 * p.val = win2_2.index t (0 : Fin 2) * 10000 + p.val; omega
  | ⟨1, _⟩ => show win2_2.index t (1 : Fin 2) * 1 + 1 * q.val = q.val; omega

/-- Element `(p, k)` of the left operand's block at `t` is the array's `(row2 t p, k)`. -/
theorem emb2_lhs (t : Fin cfg2.N) (p : Fin 10000) (k : Fin 64) :
    ((cfg2.win 0).blk t).view.emb (ix2 p k) = ix2 (row2 t p) k := by
  obtain ⟨e0, e1, e2, e3, e4, e5⟩ := index_facts2 t
  funext a; apply Fin.ext
  match a with
  | ⟨0, _⟩ => show win2_0.index t (0 : Fin 2) * 10000 + 1 * p.val = win2_2.index t (0 : Fin 2) * 10000 + p.val; omega
  | ⟨1, _⟩ => show win2_0.index t (1 : Fin 2) * 64 + 1 * k.val = k.val; omega

/-- The right operand's one block is the whole array. -/
theorem emb2_rhs (t : Fin cfg2.N) (k : Fin 64) (q : Fin 1) :
    ((cfg2.win 1).blk t).view.emb (ix2 k q) = ix2 k q := by
  obtain ⟨e0, e1, e2, e3, e4, e5⟩ := index_facts2 t
  funext a; apply Fin.ext
  match a with
  | ⟨0, _⟩ => show win2_1.index t (0 : Fin 2) * 64 + 1 * k.val = k.val; omega
  | ⟨1, _⟩ => show win2_1.index t (1 : Fin 2) * 1 + 1 * q.val = q.val; omega

variable (V : (c : Dev nD) → (b : Ref sig .tc) → Buf (Elt Ideal) ((c : Thread nD τ).loc b))

/-! ## What a point writes back -/

/-- Point `t` writes back block `t` of the whole product of the two arrays as the region finds them. -/
theorem flushed2_eq (c : Dev nD) (t : Fin cfg2.N) :
    (dat2 (F := Ideal) V c).flushed 2 t
      = ((cfg2.win 2).blk t).view.read (Elt Ideal) (Cert.Gcn.productThin (V c main_v45) (V c main_arg5)) := by
  show (cfg2.win 2).cut (grid2.coords t) ((dat2 (F := Ideal) V c).after 2 t) = _
  rw [after2_2]
  unfold out2_2
  rw [View.canon_unit_zero zeros2_2]
  simp only [View.ld_unit_zero (S := S10000x64) zeros2_2, View.ld_unit_zero (S := S64x1) zeros2_2]
  funext j
  obtain ⟨p, q, rfl⟩ : ∃ (p : Fin 10000) (q : Fin 1), j = ix2 p q := ⟨j 0, j 1, eq_ix2 j⟩
  show k2_pay1 (iblk2 V c 0 t) (iblk2 V c 1 t) (ix2 p q)
    = Cert.Gcn.productThin (V c main_v45) (V c main_arg5) (((cfg2.win 2).blk t).view.emb (ix2 p q))
  rw [emb2_out t p q]
  refine blockProduct2_eq _ _ _ _ (row2 t p) p q (fun k => ?_) (fun k => ?_)
  · show V c main_v45 (((cfg2.win 0).blk t).view.emb (ix2 p k)) = V c main_v45 (ix2 (row2 t p) k)
    rw [emb2_lhs t p k]
  · show V c main_arg5 (((cfg2.win 1).blk t).view.emb (ix2 k q)) = V c main_arg5 (ix2 k q)
    rw [emb2_rhs t k q]

/-! ## The blocks cover the array -/

/-- An index of the array is in point `t`'s block iff each coordinate is in the block's range on its axis. -/
theorem mem_blk2 (t : Fin cfg2.N) (i : S100000x1.Idx) :
    i ∈ ((cfg2.win 2).blk t).view.set ↔ ∀ a : Fin 2, win2_2.index t a * S10000x1.size a ≤ (i a).val
      ∧ (i a).val < win2_2.index t a * S10000x1.size a + S10000x1.size a := by
  show i ∈ ((View.whole main_v46).slice (win2_2.rect t)).set ↔ _
  rw [View.set_slice_whole, Rect.mem_set_unit]
  exact Iff.rfl

/-- Row `r` of the result lies in the block of the point whose row block is `r / 10000`. -/
theorem cover2 (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := index_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 1 ≤ (i 1).val ∧ (i 1).val < win2_2.index t (1 : Fin 2) * 1 + 1
    omega

/-! ## The array after the region -/

/-- After the ten points the result array holds the product of the two arrays the region found. -/
theorem region2_array (c : Dev nD) :
    (Cert.KernelIdeal.Gen.dat2 (F := Ideal) V c).arrAt 2 Cert.KernelIdeal.cfg2.N
      = Cert.Gcn.productThin (V c Cert.KernelIdeal.main_v45) (V c Cert.KernelIdeal.main_arg5) :=
  (dat2 (F := Ideal) V c).arrAt_eq_of_cover 2 (Cert.Gcn.productThin (V c main_v45) (V c main_arg5))
    (fun t _ => flushed2_eq V c t) cover2

end Cert.KernelIdeal.Regions

end
-- ==== Proof.RegionValues.lean ====
/-
  The three gridded regions of the network, each as one whole-array function.

  Each region runs over ten grid points; point `t` is handed rows 10000 t .. 10000 t + 9999 of its row-blocked
  operand, the whole of its small operand, and writes back rows 10000 t .. 10000 t + 9999 of its result. In each
  region, entry (p, q) of what point `t` writes depends on row 10000 t + p of the row-blocked operand only, and equals
  entry (10000 t + p, q) of a function of the whole arrays: the first layer's matrix product, the bias followed by the
  rectifier, and the second layer's matrix product (a product of bf16-rounded operands being the exact product on the
  extended reals). Since every row lies in exactly one point's block, after the ten write-backs the result array is
  that function of the arrays the region found. One module per region states and proves this; this module collects them.
-/
import proofs.«127868_j79087527789063_1_alg».proof.Proof.RegionValue0
import proofs.«127868_j79087527789063_1_alg».proof.Proof.RegionValue1
import proofs.«127868_j79087527789063_1_alg».proof.Proof.RegionValue2
-- ==== Proof.RefRun.lean ====
/-
  The idealized reference program's run, read back as a fold of its host operations.

  The reference is a straight line of host operations: the edge rows, the first layer's matrix product, the degree and
  edge weights, the first aggregation with its bias and rectifier, the second product, the degree and edge weights
  once more, the second aggregation with its bias, and the read-out at each graph's last node. Three of its lines
  call functions jax outlined (a `where`, the rectifier, and a running sum that itself calls a second function); each
  call is the callee's operations on that call's own buffers. `ops` lists all of these operations in order, the callees'
  in place; `main_eq` says the printed program is that line, once the calls are unfolded and the sequencing is
  re-associated; `run` is the library's run of a straight line: every weakly fair execution terminates and every
  buffer ends at the fold of the operations' results over the launch memory. The list is also cut into the three
  stretches `ops0`, `ops1`, `ops2` at which its value is read.
-/
import proofs.«127868_j79087527789063_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first layer up to the second matrix product: 64 operations. -/
abbrev ops0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v6 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v6 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v31 (broadcastInDim S3300000 ![] bcast_S_S3300000 : (⟨S_, .i32⟩ : BufTy).Contents (Elt F) → (⟨S3300000, .i32⟩ : BufTy).Contents (Elt F)),
    StableHlo.binary main_v6 main_v31 main_v32 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v6 main_v33 main_v34 (addi : (⟨S3300000, .i32⟩ : BufTy).Contents (Elt F) → (⟨S3300000, .i32⟩ : BufTy).Contents (Elt F) → (⟨S3300000, .i32⟩ : BufTy).Contents (Elt F)),
    StableHlo.ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v35 main_v36 (broadcastInDim S3300000x1 ![0] bcast_S3300000_S3300000x1_0 : (⟨S3300000, .i32⟩ : BufTy).Contents (Elt F) → (⟨S3300000x1, .i32⟩ : BufTy).Contents (Elt F)),
    StableHlo.binary main_v4 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v30 main_v38 (broadcastInDim S3300000x1 ![0] bcast_S3300000_S3300000x1_0 : (⟨S3300000, .f32⟩ : BufTy).Contents (Elt F) → (⟨S3300000x1, .f32⟩ : BufTy).Contents (Elt F)),
    StableHlo.unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 maximumf,
    StableHlo.binary main_v47 main_arg5 main_v48 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)) ]

/-- The graph's weights again, the second aggregation, and the graph sizes' running sum: 64 operations. -/
abbrev ops1 : List (HloOp τ sig (Elt F)) :=
  [ StableHlo.nullary main_v49 (iotaInDim S100000 32 0),
    StableHlo.binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_9 (constant S_ .f32 0x3F800000#32),
    StableHlo.unary main_cst_9 main_v52 (broadcastInDim S3300000 ![] bcast_S_S3300000 : (⟨S_, .f32⟩ : BufTy).Contents (Elt F) → (⟨S3300000, .f32⟩ : BufTy).Contents (Elt F)),
    StableHlo.nullary main_cst_10 (constant S_ .f32 0x00000000#32),
    StableHlo.unary main_cst_10 main_v53 (broadcastInDim S100000 ![] bcast_S_S100000 : (⟨S_, .f32⟩ : BufTy).Contents (Elt F) → (⟨S100000, .f32⟩ : BufTy).Contents (Elt F)),
    StableHlo.unary main_v51 main_v54 (broadcastInDim S3300000x1 ![0] bcast_S3300000_S3300000x1_0 : (⟨S3300000, .i32⟩ : BufTy).Contents (Elt F) → (⟨S3300000x1, .i32⟩ : BufTy).Contents (Elt F)),
    StableHlo.ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12 : StableHlo.TRef sig ⟨S_, .f32⟩) main_call2.v0 id,
    StableHlo.TRef.unary main_call2.v0 main_call2.v1 (broadcastInDim S100000 ![] bcast_S_S100000),
    StableHlo.TRef.ternary (.of main_v57 : StableHlo.TRef sig ⟨S100000, .i1⟩) (.of main_v58 : StableHlo.TRef sig ⟨S100000, .f32⟩) main_call2.v1 main_call2.v2 select,
    StableHlo.nullary main_c_13 (constantI S_ 32 0#32),
    StableHlo.unary main_c_13 main_v60 (broadcastInDim S3300000 ![] bcast_S_S3300000 : (⟨S_, .i32⟩ : BufTy).Contents (Elt F) → (⟨S3300000, .i32⟩ : BufTy).Contents (Elt F)),
    StableHlo.binary main_v50 main_v60 main_v61 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v62 (broadcastInDim S3300000 ![] bcast_S_S3300000 : (⟨S_, .i32⟩ : BufTy).Contents (Elt F) → (⟨S3300000, .i32⟩ : BufTy).Contents (Elt F)),
    StableHlo.binary main_v50 main_v62 main_v63 (addi : (⟨S3300000, .i32⟩ : BufTy).Contents (Elt F) → (⟨S3300000, .i32⟩ : BufTy).Contents (Elt F) → (⟨S3300000, .i32⟩ : BufTy).Contents (Elt F)),
    StableHlo.ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v64 main_v65 (broadcastInDim S3300000x1 ![0] bcast_S3300000_S3300000x1_0 : (⟨S3300000, .i32⟩ : BufTy).Contents (Elt F) → (⟨S3300000x1, .i32⟩ : BufTy).Contents (Elt F)),
    StableHlo.binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_15 (constantI S_ 32 0#32),
    StableHlo.unary main_c_15 main_v67 (broadcastInDim S3300000 ![] bcast_S_S3300000 : (⟨S_, .i32⟩ : BufTy).Contents (Elt F) → (⟨S3300000, .i32⟩ : BufTy).Contents (Elt F)),
    StableHlo.binary main_v51 main_v67 main_v68 (cmpi .slt : (⟨S3300000, .i32⟩ : BufTy).Contents (Elt F) → (⟨S3300000, .i32⟩ : BufTy).Contents (Elt F) → (⟨S3300000, .i1⟩ : BufTy).Contents (Elt F)),
    StableHlo.nullary main_c_16 (constantI S_ 32 100000#32),
    StableHlo.unary main_c_16 main_v69 (broadcastInDim S3300000 ![] bcast_S_S3300000 : (⟨S_, .i32⟩ : BufTy).Contents (Elt F) → (⟨S3300000, .i32⟩ : BufTy).Contents (Elt F)),
    StableHlo.binary main_v51 main_v69 main_v70 (addi : (⟨S3300000, .i32⟩ : BufTy).Contents (Elt F) → (⟨S3300000, .i32⟩ : BufTy).Contents (Elt F) → (⟨S3300000, .i32⟩ : BufTy).Contents (Elt F)),
    StableHlo.ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v71 main_v72 (broadcastInDim S3300000x1 ![0] bcast_S3300000_S3300000x1_0 : (⟨S3300000, .i32⟩ : BufTy).Contents (Elt F) → (⟨S3300000x1, .i32⟩ : BufTy).Contents (Elt F)),
    StableHlo.binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v66 main_v73 main_v74 (mulf : (⟨S3300000, .f32⟩ : BufTy).Contents (Elt F) → (⟨S3300000, .f32⟩ : BufTy).Contents (Elt F) → (⟨S3300000, .f32⟩ : BufTy).Contents (Elt F)),
    StableHlo.nullary main_c_17 (constantI S_ 32 0#32),
    StableHlo.unary main_c_17 main_v75 (broadcastInDim S3300000 ![] bcast_S_S3300000 : (⟨S_, .i32⟩ : BufTy).Contents (Elt F) → (⟨S3300000, .i32⟩ : BufTy).Contents (Elt F)),
    StableHlo.binary main_v50 main_v75 main_v76 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v77 (broadcastInDim S3300000 ![] bcast_S_S3300000 : (⟨S_, .i32⟩ : BufTy).Contents (Elt F) → (⟨S3300000, .i32⟩ : BufTy).Contents (Elt F)),
    StableHlo.binary main_v50 main_v77 main_v78 (addi : (⟨S3300000, .i32⟩ : BufTy).Contents (Elt F) → (⟨S3300000, .i32⟩ : BufTy).Contents (Elt F) → (⟨S3300000, .i32⟩ : BufTy).Contents (Elt F)),
    StableHlo.ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v79 main_v80 (broadcastInDim S3300000x1 ![0] bcast_S3300000_S3300000x1_0 : (⟨S3300000, .i32⟩ : BufTy).Contents (Elt F) → (⟨S3300000x1, .i32⟩ : BufTy).Contents (Elt F)),
    StableHlo.binary main_v48 main_v80 main_v81 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    StableHlo.unary main_v74 main_v82 (broadcastInDim S3300000x1 ![0] bcast_S3300000_S3300000x1_0 : (⟨S3300000, .f32⟩ : BufTy).Contents (Elt F) → (⟨S3300000x1, .f32⟩ : BufTy).Contents (Elt F)),
    StableHlo.binary main_v81 main_v82 main_v83 (mulf : (⟨S3300000x1, .f32⟩ : BufTy).Contents (Elt F) → (⟨S3300000x1, .f32⟩ : BufTy).Contents (Elt F) → (⟨S3300000x1, .f32⟩ : BufTy).Contents (Elt F)),
    StableHlo.nullary main_cst_19 (constant S_ .f32 0x00000000#32),
    StableHlo.unary main_cst_19 main_v84 (broadcastInDim S100000x1 ![] bcast_S_S100000x1 : (⟨S_, .f32⟩ : BufTy).Contents (Elt F) → (⟨S100000x1, .f32⟩ : BufTy).Contents (Elt F)),
    StableHlo.unary main_v51 main_v85 (broadcastInDim S3300000x1 ![0] bcast_S3300000_S3300000x1_0 : (⟨S3300000, .i32⟩ : BufTy).Contents (Elt F) → (⟨S3300000x1, .i32⟩ : BufTy).Contents (Elt F)),
    StableHlo.ternary main_v84 main_v85 main_v83 main_v86 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    StableHlo.unary main_arg6 main_v87 (broadcastInDim S1x1 ![1] bcast_S1_S1x1_1 : (⟨S1, .f32⟩ : BufTy).Contents (Elt F) → (⟨S1x1, .f32⟩ : BufTy).Contents (Elt F)),
    StableHlo.unary main_v87 main_v88 (broadcastInDim S100000x1 ![0, 1] bcast_S1x1_S100000x1_0_1 : (⟨S1x1, .f32⟩ : BufTy).Contents (Elt F) → (⟨S100000x1, .f32⟩ : BufTy).Contents (Elt F)),
    StableHlo.binary main_v86 main_v88 main_v89 (addf : (⟨S100000x1, .f32⟩ : BufTy).Contents (Elt F) → (⟨S100000x1, .f32⟩ : BufTy).Contents (Elt F) → (⟨S100000x1, .f32⟩ : BufTy).Contents (Elt F)),
    StableHlo.nullary main_c_20 (constantI S_ 32 1#32),
    StableHlo.unary main_c_20 main_v90 (broadcastInDim S100000 ![] bcast_S_S100000 : (⟨S_, .i32⟩ : BufTy).Contents (Elt F) → (⟨S100000, .i32⟩ : BufTy).Contents (Elt F)),
    StableHlo.nullary main_c_21 (constantI S_ 32 0#32),
    StableHlo.unary main_c_21 main_v91 (broadcastInDim S64 ![] bcast_S_S64 : (⟨S_, .i32⟩ : BufTy).Contents (Elt F) → (⟨S64, .i32⟩ : BufTy).Contents (Elt F)),
    StableHlo.unary main_arg2 main_v92 (broadcastInDim S100000x1 ![0] bcast_S100000_S100000x1_0 : (⟨S100000, .i32⟩ : BufTy).Contents (Elt F) → (⟨S100000x1, .i32⟩ : BufTy).Contents (Elt F)),
    StableHlo.ternary main_v91 main_v92 main_v90 main_v93 ((fun x i u => Host.scatter scatter_S64_S100000x1_S100000_n_0_0_1 IntOp.addi x i u) : (⟨S64, .i32⟩ : BufTy).Contents (Elt F) → (⟨S100000x1, .i32⟩ : BufTy).Contents (Elt F) → (⟨S100000, .i32⟩ : BufTy).Contents (Elt F) → (⟨S64, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v93 : StableHlo.TRef sig ⟨S64, .i32⟩) main_call3.call0.v0 main_call3.call0.v1 (fun x v => Host.reduceWindow IntOp.addi ![64] ![1] ![63] ![0] x v reduceWindows_S64_S64_w64s1p63_0 h_S_),
    StableHlo.nullary main_c_22 (constantI S_ 32 1#32) ]

/-- The read-out at each graph's last node: 12 operations. -/
abbrev ops2 : List (HloOp τ sig (Elt F)) :=
  [ StableHlo.unary main_c_22 main_v95 (broadcastInDim S64 ![] bcast_S_S64 : (⟨S_, .i32⟩ : BufTy).Contents (Elt F) → (⟨S64, .i32⟩ : BufTy).Contents (Elt F)),
    StableHlo.binary main_v94 main_v95 main_v96 (subi : (⟨S64, .i32⟩ : BufTy).Contents (Elt F) → (⟨S64, .i32⟩ : BufTy).Contents (Elt F) → (⟨S64, .i32⟩ : BufTy).Contents (Elt F)),
    StableHlo.nullary main_c_23 (constantI S_ 32 0#32),
    StableHlo.unary main_c_23 main_v97 (broadcastInDim S64 ![] bcast_S_S64 : (⟨S_, .i32⟩ : BufTy).Contents (Elt F) → (⟨S64, .i32⟩ : BufTy).Contents (Elt F)),
    StableHlo.binary main_v96 main_v97 main_v98 (cmpi .slt : (⟨S64, .i32⟩ : BufTy).Contents (Elt F) → (⟨S64, .i32⟩ : BufTy).Contents (Elt F) → (⟨S64, .i1⟩ : BufTy).Contents (Elt F)),
    StableHlo.nullary main_c_24 (constantI S_ 32 100000#32),
    StableHlo.unary main_c_24 main_v99 (broadcastInDim S64 ![] bcast_S_S64 : (⟨S_, .i32⟩ : BufTy).Contents (Elt F) → (⟨S64, .i32⟩ : BufTy).Contents (Elt F)),
    StableHlo.binary main_v96 main_v99 main_v100 (addi : (⟨S64, .i32⟩ : BufTy).Contents (Elt F) → (⟨S64, .i32⟩ : BufTy).Contents (Elt F) → (⟨S64, .i32⟩ : BufTy).Contents (Elt F)),
    StableHlo.ternary main_v98 main_v100 main_v96 main_v101 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v101 main_v102 (broadcastInDim S64x1 ![0] bcast_S64_S64x1_0 : (⟨S64, .i32⟩ : BufTy).Contents (Elt F) → (⟨S64x1, .i32⟩ : BufTy).Contents (Elt F)),
    StableHlo.binary main_v89 main_v102 main_v103 ((fun x i => Host.gather gather_S100000x1_S64x1_S64x1_1_0_n_n_0_1_11 x i) : (⟨S100000x1, .f32⟩ : BufTy).Contents (Elt F) → (⟨S64x1, .i32⟩ : BufTy).Contents (Elt F) → (⟨S64x1, .f32⟩ : BufTy).Contents (Elt F)),
    StableHlo.reshape main_v103 main_v104 rfl shapeCasts_S64x1_S64 ]

/-- The whole line. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v6 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v6 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v31 (broadcastInDim S3300000 ![] bcast_S_S3300000 : (⟨S_, .i32⟩ : BufTy).Contents (Elt F) → (⟨S3300000, .i32⟩ : BufTy).Contents (Elt F)),
    StableHlo.binary main_v6 main_v31 main_v32 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v6 main_v33 main_v34 (addi : (⟨S3300000, .i32⟩ : BufTy).Contents (Elt F) → (⟨S3300000, .i32⟩ : BufTy).Contents (Elt F) → (⟨S3300000, .i32⟩ : BufTy).Contents (Elt F)),
    StableHlo.ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v35 main_v36 (broadcastInDim S3300000x1 ![0] bcast_S3300000_S3300000x1_0 : (⟨S3300000, .i32⟩ : BufTy).Contents (Elt F) → (⟨S3300000x1, .i32⟩ : BufTy).Contents (Elt F)),
    StableHlo.binary main_v4 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v30 main_v38 (broadcastInDim S3300000x1 ![0] bcast_S3300000_S3300000x1_0 : (⟨S3300000, .f32⟩ : BufTy).Contents (Elt F) → (⟨S3300000x1, .f32⟩ : BufTy).Contents (Elt F)),
    StableHlo.unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 maximumf,
    StableHlo.binary main_v47 main_arg5 main_v48 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.nullary main_v49 (iotaInDim S100000 32 0),
    StableHlo.binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_9 (constant S_ .f32 0x3F800000#32),
    StableHlo.unary main_cst_9 main_v52 (broadcastInDim S3300000 ![] bcast_S_S3300000 : (⟨S_, .f32⟩ : BufTy).Contents (Elt F) → (⟨S3300000, .f32⟩ : BufTy).Contents (Elt F)),
    StableHlo.nullary main_cst_10 (constant S_ .f32 0x00000000#32),
    StableHlo.unary main_cst_10 main_v53 (broadcastInDim S100000 ![] bcast_S_S100000 : (⟨S_, .f32⟩ : BufTy).Contents (Elt F) → (⟨S100000, .f32⟩ : BufTy).Contents (Elt F)),
    StableHlo.unary main_v51 main_v54 (broadcastInDim S3300000x1 ![0] bcast_S3300000_S3300000x1_0 : (⟨S3300000, .i32⟩ : BufTy).Contents (Elt F) → (⟨S3300000x1, .i32⟩ : BufTy).Contents (Elt F)),
    StableHlo.ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12 : StableHlo.TRef sig ⟨S_, .f32⟩) main_call2.v0 id,
    StableHlo.TRef.unary main_call2.v0 main_call2.v1 (broadcastInDim S100000 ![] bcast_S_S100000),
    StableHlo.TRef.ternary (.of main_v57 : StableHlo.TRef sig ⟨S100000, .i1⟩) (.of main_v58 : StableHlo.TRef sig ⟨S100000, .f32⟩) main_call2.v1 main_call2.v2 select,
    StableHlo.nullary main_c_13 (constantI S_ 32 0#32),
    StableHlo.unary main_c_13 main_v60 (broadcastInDim S3300000 ![] bcast_S_S3300000 : (⟨S_, .i32⟩ : BufTy).Contents (Elt F) → (⟨S3300000, .i32⟩ : BufTy).Contents (Elt F)),
    StableHlo.binary main_v50 main_v60 main_v61 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v62 (broadcastInDim S3300000 ![] bcast_S_S3300000 : (⟨S_, .i32⟩ : BufTy).Contents (Elt F) → (⟨S3300000, .i32⟩ : BufTy).Contents (Elt F)),
    StableHlo.binary main_v50 main_v62 main_v63 (addi : (⟨S3300000, .i32⟩ : BufTy).Contents (Elt F) → (⟨S3300000, .i32⟩ : BufTy).Contents (Elt F) → (⟨S3300000, .i32⟩ : BufTy).Contents (Elt F)),
    StableHlo.ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v64 main_v65 (broadcastInDim S3300000x1 ![0] bcast_S3300000_S3300000x1_0 : (⟨S3300000, .i32⟩ : BufTy).Contents (Elt F) → (⟨S3300000x1, .i32⟩ : BufTy).Contents (Elt F)),
    StableHlo.binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_15 (constantI S_ 32 0#32),
    StableHlo.unary main_c_15 main_v67 (broadcastInDim S3300000 ![] bcast_S_S3300000 : (⟨S_, .i32⟩ : BufTy).Contents (Elt F) → (⟨S3300000, .i32⟩ : BufTy).Contents (Elt F)),
    StableHlo.binary main_v51 main_v67 main_v68 (cmpi .slt : (⟨S3300000, .i32⟩ : BufTy).Contents (Elt F) → (⟨S3300000, .i32⟩ : BufTy).Contents (Elt F) → (⟨S3300000, .i1⟩ : BufTy).Contents (Elt F)),
    StableHlo.nullary main_c_16 (constantI S_ 32 100000#32),
    StableHlo.unary main_c_16 main_v69 (broadcastInDim S3300000 ![] bcast_S_S3300000 : (⟨S_, .i32⟩ : BufTy).Contents (Elt F) → (⟨S3300000, .i32⟩ : BufTy).Contents (Elt F)),
    StableHlo.binary main_v51 main_v69 main_v70 (addi : (⟨S3300000, .i32⟩ : BufTy).Contents (Elt F) → (⟨S3300000, .i32⟩ : BufTy).Contents (Elt F) → (⟨S3300000, .i32⟩ : BufTy).Contents (Elt F)),
    StableHlo.ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v71 main_v72 (broadcastInDim S3300000x1 ![0] bcast_S3300000_S3300000x1_0 : (⟨S3300000, .i32⟩ : BufTy).Contents (Elt F) → (⟨S3300000x1, .i32⟩ : BufTy).Contents (Elt F)),
    StableHlo.binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v66 main_v73 main_v74 (mulf : (⟨S3300000, .f32⟩ : BufTy).Contents (Elt F) → (⟨S3300000, .f32⟩ : BufTy).Contents (Elt F) → (⟨S3300000, .f32⟩ : BufTy).Contents (Elt F)),
    StableHlo.nullary main_c_17 (constantI S_ 32 0#32),
    StableHlo.unary main_c_17 main_v75 (broadcastInDim S3300000 ![] bcast_S_S3300000 : (⟨S_, .i32⟩ : BufTy).Contents (Elt F) → (⟨S3300000, .i32⟩ : BufTy).Contents (Elt F)),
    StableHlo.binary main_v50 main_v75 main_v76 (cmpi .slt : (⟨S3300000, .i32⟩ : BufTy).Contents (Elt F) → (⟨S3300000, .i32⟩ : BufTy).Contents (Elt F) → (⟨S3300000, .i1⟩ : BufTy).Contents (Elt F)),
    StableHlo.nullary main_c_18 (constantI S_ 32 100000#32),
    StableHlo.unary main_c_18 main_v77 (broadcastInDim S3300000 ![] bcast_S_S3300000 : (⟨S_, .i32⟩ : BufTy).Contents (Elt F) → (⟨S3300000, .i32⟩ : BufTy).Contents (Elt F)),
    StableHlo.binary main_v50 main_v77 main_v78 (addi : (⟨S3300000, .i32⟩ : BufTy).Contents (Elt F) → (⟨S3300000, .i32⟩ : BufTy).Contents (Elt F) → (⟨S3300000, .i32⟩ : BufTy).Contents (Elt F)),
    StableHlo.ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v79 main_v80 (broadcastInDim S3300000x1 ![0] bcast_S3300000_S3300000x1_0 : (⟨S3300000, .i32⟩ : BufTy).Contents (Elt F) → (⟨S3300000x1, .i32⟩ : BufTy).Contents (Elt F)),
    StableHlo.binary main_v48 main_v80 main_v81 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    StableHlo.unary main_v74 main_v82 (broadcastInDim S3300000x1 ![0] bcast_S3300000_S3300000x1_0 : (⟨S3300000, .f32⟩ : BufTy).Contents (Elt F) → (⟨S3300000x1, .f32⟩ : BufTy).Contents (Elt F)),
    StableHlo.binary main_v81 main_v82 main_v83 (mulf : (⟨S3300000x1, .f32⟩ : BufTy).Contents (Elt F) → (⟨S3300000x1, .f32⟩ : BufTy).Contents (Elt F) → (⟨S3300000x1, .f32⟩ : BufTy).Contents (Elt F)),
    StableHlo.nullary main_cst_19 (constant S_ .f32 0x00000000#32),
    StableHlo.unary main_cst_19 main_v84 (broadcastInDim S100000x1 ![] bcast_S_S100000x1 : (⟨S_, .f32⟩ : BufTy).Contents (Elt F) → (⟨S100000x1, .f32⟩ : BufTy).Contents (Elt F)),
    StableHlo.unary main_v51 main_v85 (broadcastInDim S3300000x1 ![0] bcast_S3300000_S3300000x1_0 : (⟨S3300000, .i32⟩ : BufTy).Contents (Elt F) → (⟨S3300000x1, .i32⟩ : BufTy).Contents (Elt F)),
    StableHlo.ternary main_v84 main_v85 main_v83 main_v86 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    StableHlo.unary main_arg6 main_v87 (broadcastInDim S1x1 ![1] bcast_S1_S1x1_1 : (⟨S1, .f32⟩ : BufTy).Contents (Elt F) → (⟨S1x1, .f32⟩ : BufTy).Contents (Elt F)),
    StableHlo.unary main_v87 main_v88 (broadcastInDim S100000x1 ![0, 1] bcast_S1x1_S100000x1_0_1 : (⟨S1x1, .f32⟩ : BufTy).Contents (Elt F) → (⟨S100000x1, .f32⟩ : BufTy).Contents (Elt F)),
    StableHlo.binary main_v86 main_v88 main_v89 (addf : (⟨S100000x1, .f32⟩ : BufTy).Contents (Elt F) → (⟨S100000x1, .f32⟩ : BufTy).Contents (Elt F) → (⟨S100000x1, .f32⟩ : BufTy).Contents (Elt F)),
    StableHlo.nullary main_c_20 (constantI S_ 32 1#32),
    StableHlo.unary main_c_20 main_v90 (broadcastInDim S100000 ![] bcast_S_S100000 : (⟨S_, .i32⟩ : BufTy).Contents (Elt F) → (⟨S100000, .i32⟩ : BufTy).Contents (Elt F)),
    StableHlo.nullary main_c_21 (constantI S_ 32 0#32),
    StableHlo.unary main_c_21 main_v91 (broadcastInDim S64 ![] bcast_S_S64 : (⟨S_, .i32⟩ : BufTy).Contents (Elt F) → (⟨S64, .i32⟩ : BufTy).Contents (Elt F)),
    StableHlo.unary main_arg2 main_v92 (broadcastInDim S100000x1 ![0] bcast_S100000_S100000x1_0 : (⟨S100000, .i32⟩ : BufTy).Contents (Elt F) → (⟨S100000x1, .i32⟩ : BufTy).Contents (Elt F)),
    StableHlo.ternary main_v91 main_v92 main_v90 main_v93 ((fun x i u => Host.scatter scatter_S64_S100000x1_S100000_n_0_0_1 IntOp.addi x i u) : (⟨S64, .i32⟩ : BufTy).Contents (Elt F) → (⟨S100000x1, .i32⟩ : BufTy).Contents (Elt F) → (⟨S100000, .i32⟩ : BufTy).Contents (Elt F) → (⟨S64, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v93 : StableHlo.TRef sig ⟨S64, .i32⟩) main_call3.call0.v0 main_call3.call0.v1 (fun x v => Host.reduceWindow IntOp.addi ![64] ![1] ![63] ![0] x v reduceWindows_S64_S64_w64s1p63_0 h_S_),
    StableHlo.nullary main_c_22 (constantI S_ 32 1#32),
    StableHlo.unary main_c_22 main_v95 (broadcastInDim S64 ![] bcast_S_S64 : (⟨S_, .i32⟩ : BufTy).Contents (Elt F) → (⟨S64, .i32⟩ : BufTy).Contents (Elt F)),
    StableHlo.binary main_v94 main_v95 main_v96 (subi : (⟨S64, .i32⟩ : BufTy).Contents (Elt F) → (⟨S64, .i32⟩ : BufTy).Contents (Elt F) → (⟨S64, .i32⟩ : BufTy).Contents (Elt F)),
    StableHlo.nullary main_c_23 (constantI S_ 32 0#32),
    StableHlo.unary main_c_23 main_v97 (broadcastInDim S64 ![] bcast_S_S64 : (⟨S_, .i32⟩ : BufTy).Contents (Elt F) → (⟨S64, .i32⟩ : BufTy).Contents (Elt F)),
    StableHlo.binary main_v96 main_v97 main_v98 (cmpi .slt : (⟨S64, .i32⟩ : BufTy).Contents (Elt F) → (⟨S64, .i32⟩ : BufTy).Contents (Elt F) → (⟨S64, .i1⟩ : BufTy).Contents (Elt F)),
    StableHlo.nullary main_c_24 (constantI S_ 32 100000#32),
    StableHlo.unary main_c_24 main_v99 (broadcastInDim S64 ![] bcast_S_S64 : (⟨S_, .i32⟩ : BufTy).Contents (Elt F) → (⟨S64, .i32⟩ : BufTy).Contents (Elt F)),
    StableHlo.binary main_v96 main_v99 main_v100 (addi : (⟨S64, .i32⟩ : BufTy).Contents (Elt F) → (⟨S64, .i32⟩ : BufTy).Contents (Elt F) → (⟨S64, .i32⟩ : BufTy).Contents (Elt F)),
    StableHlo.ternary main_v98 main_v100 main_v96 main_v101 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v101 main_v102 (broadcastInDim S64x1 ![0] bcast_S64_S64x1_0 : (⟨S64, .i32⟩ : BufTy).Contents (Elt F) → (⟨S64x1, .i32⟩ : BufTy).Contents (Elt F)),
    StableHlo.binary main_v89 main_v102 main_v103 ((fun x i => Host.gather gather_S100000x1_S64x1_S64x1_1_0_n_n_0_1_11 x i) : (⟨S100000x1, .f32⟩ : BufTy).Contents (Elt F) → (⟨S64x1, .i32⟩ : BufTy).Contents (Elt F) → (⟨S64x1, .f32⟩ : BufTy).Contents (Elt F)),
    StableHlo.reshape main_v103 main_v104 rfl shapeCasts_S64x1_S64 ]

/-- The line is its three stretches, one after the other. -/
theorem ops_eq : (ops : List (HloOp τ sig (Elt F))) = ops0 ++ (ops1 ++ ops2) := rfl

-- one hundred and forty binds re-associated: the rewriting recurses once per statement
set_option maxRecDepth 65536 in
set_option maxHeartbeats 4000000 in
/-- The printed program is that straight line: the called functions' bodies unfolded at their calls over the calls'
    buffer records, and the sequencing re-associated, both sides are one chain of the same steps. -/
theorem main_eq (c : Dev nD) : main (F := F) c = seq ops := by
  simp only [main, main_part0, main_part1, main_part2, fn_where.body, fn_relu.body, fn_cumsum.body, fn_cumsum_0.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub ..⟩

/-- From any memory with zero counters, every weakly fair execution of the reference terminates, and every buffer ends
    at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefValue.lean ====
/-
  What the idealized reference leaves in its result buffer, as a function of the argument arrays.

  The reference's line of operations is read in two stretches from any contents `V` of the buffers. The first stretch
  leaves the second layer's product: the first layer's product aggregated over the self-looped, symmetrically weighted
  graph, biased, rectified and multiplied by the second weight matrix; it also leaves the two edge rows and does not
  touch the arguments. The second and third stretches rebuild the self-looped lists and the weights from the edge rows
  (the reference computes them once per layer, to the same values), aggregate the product, add the second bias, and read
  the result at the last node of every graph. Composed, the result buffer holds the specification's `gcn` of the
  arguments; the argument buffers are written by no operation.
-/
import proofs.«127868_j79087527789063_1_alg».proof.Proof.RefRun
import proofs.«127868_j79087527789063_1_alg».proof.Proof.GcnSpec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A line cut in two is folded one part after the other. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer none of a stretch's operations writes keeps its contents. -/
local macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first stretch -/

/-- The second layer's product, of the first layer's rectified aggregation. -/
theorem first_product (V : Valuation τ sig (Elt F)) :
    after (ops0 (F := F)) V (Proc.devRef .tc main_v48)
      = Cert.Gcn.productThin
          (Cert.Gcn.biasRelu
            (Cert.Gcn.aggregateWide (Cert.Gcn.productWide (V (Proc.devRef .tc main_arg0)) (V (Proc.devRef .tc main_arg3)))
              (Cert.Gcn.withLoops (Cert.Gcn.edgeRow0 (V (Proc.devRef .tc main_arg1)))) (Cert.Gcn.withLoops (Cert.Gcn.edgeRow1 (V (Proc.devRef .tc main_arg1))))
              (Cert.Gcn.edgeNorm (Cert.Gcn.invSqrt (Cert.Gcn.degree (Cert.Gcn.withLoops (Cert.Gcn.edgeRow1 (V (Proc.devRef .tc main_arg1))))))
                (Cert.Gcn.withLoops (Cert.Gcn.edgeRow0 (V (Proc.devRef .tc main_arg1)))) (Cert.Gcn.withLoops (Cert.Gcn.edgeRow1 (V (Proc.devRef .tc main_arg1))))))
            (V (Proc.devRef .tc main_arg4)))
          (V (Proc.devRef .tc main_arg5)) := by
  dsimp only [ops0]
  after_results_simp
  rfl

/-- The row of sources. -/
theorem first_row0 (V : Valuation τ sig (Elt F)) :
    after (ops0 (F := F)) V (Proc.devRef .tc main_v1) = Cert.Gcn.edgeRow0 (V (Proc.devRef .tc main_arg1)) := by
  dsimp only [ops0]
  after_results_simp
  rfl

/-- The row of targets. -/
theorem first_row1 (V : Valuation τ sig (Elt F)) :
    after (ops0 (F := F)) V (Proc.devRef .tc main_v3) = Cert.Gcn.edgeRow1 (V (Proc.devRef .tc main_arg1)) := by
  dsimp only [ops0]
  after_results_simp
  rfl

theorem first_arg2 (V : Valuation τ sig (Elt F)) : after (ops0 (F := F)) V (Proc.devRef .tc main_arg2) = V (Proc.devRef .tc main_arg2) := by
  not_written ops0

theorem first_arg6 (V : Valuation τ sig (Elt F)) : after (ops0 (F := F)) V (Proc.devRef .tc main_arg6) = V (Proc.devRef .tc main_arg6) := by
  not_written ops0

/-! ## The second and third stretches -/

/-- The result, from the product and the edge rows the first stretch left. -/
theorem second_result (V : Valuation τ sig (Elt F)) :
    after (ops2 (F := F)) (after ops1 V) (Proc.devRef .tc main_v104)
      = Cert.Gcn.pick
          (Cert.Gcn.addBias
            (Cert.Gcn.aggregateThin (V (Proc.devRef .tc main_v48)) (Cert.Gcn.withLoops (V (Proc.devRef .tc main_v1))) (Cert.Gcn.withLoops (V (Proc.devRef .tc main_v3)))
              (Cert.Gcn.edgeNorm (Cert.Gcn.invSqrt (Cert.Gcn.degree (Cert.Gcn.withLoops (V (Proc.devRef .tc main_v3)))))
                (Cert.Gcn.withLoops (V (Proc.devRef .tc main_v1))) (Cert.Gcn.withLoops (V (Proc.devRef .tc main_v3)))))
            (V (Proc.devRef .tc main_arg6)))
          (Cert.Gcn.lastNode (Cert.Gcn.runningSum (Cert.Gcn.graphSizes (V (Proc.devRef .tc main_arg2))))) := by
  dsimp only [ops1, ops2]
  after_results_simp
  -- the called functions' operations carry their operands to the buffers' own types and back: the identity
  simp only [TRef.toBuf, TRef.ofBuf, cast_eq]
  rfl

/-! ## The whole line -/

/-- The result buffer after the line holds the two-layer graph convolution of the argument arrays. -/
theorem result_eq (V : Valuation τ sig (Elt F)) :
    after (ops (F := F)) V (Proc.devRef .tc main_v104)
      = Cert.Gcn.gcn (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_eq, after_app, after_app, second_result, first_product, first_row0, first_row1, first_arg2, first_arg6]
  rfl

theorem kept_arg0 (V : Valuation τ sig (Elt F)) : after (ops (F := F)) V (Proc.devRef .tc main_arg0) = V (Proc.devRef .tc main_arg0) := by
  not_written ops

theorem kept_arg1 (V : Valuation τ sig (Elt F)) : after (ops (F := F)) V (Proc.devRef .tc main_arg1) = V (Proc.devRef .tc main_arg1) := by
  not_written ops

theorem kept_arg2 (V : Valuation τ sig (Elt F)) : after (ops (F := F)) V (Proc.devRef .tc main_arg2) = V (Proc.devRef .tc main_arg2) := by
  not_written ops

theorem kept_arg3 (V : Valuation τ sig (Elt F)) : after (ops (F := F)) V (Proc.devRef .tc main_arg3) = V (Proc.devRef .tc main_arg3) := by
  not_written ops

theorem kept_arg4 (V : Valuation τ sig (Elt F)) : after (ops (F := F)) V (Proc.devRef .tc main_arg4) = V (Proc.devRef .tc main_arg4) := by
  not_written ops

theorem kept_arg5 (V : Valuation τ sig (Elt F)) : after (ops (F := F)) V (Proc.devRef .tc main_arg5) = V (Proc.devRef .tc main_arg5) := by
  not_written ops

theorem kept_arg6 (V : Valuation τ sig (Elt F)) : after (ops (F := F)) V (Proc.devRef .tc main_arg6) = V (Proc.devRef .tc main_arg6) := by
  not_written ops

end Cert.ReferenceIdeal.Hand

end
-- ==== Proof.lean ====
/-
  A two-layer graph convolution, with its two dense products and its bias-and-rectifier as tiled kernels, against the
  same network written with jnp alone.

  Both programs add a self-loop to every node, weight every edge by the inverse square roots of its endpoints'
  degrees, and compute, for each of the two layers, the sum over a node's incoming edges of the weighted, linearly
  transformed features of the source, plus a bias; a rectifier sits between the layers; the result is the second
  layer's value at the last node of every graph of the batch. The kernel program computes `x · W1`, the
  bias-and-rectifier and `h1 · W2` in three launches gridded over blocks of 10000 rows, and everything else — the
  gathers, the scatter-adds, the running sum — on the host, as the reference does. At the ideal instance, where a
  float is an extended real and a change of format is the identity, a launch's tiled product with operands rounded to
  bf16 is the host's product of the same matrices (the same sums of products, block by block), the tiled
  bias-and-rectifier is the host's, and the remaining host operations are applied, in both programs, to equal operands
  (the reference rebuilds the self-looped edge lists and the edge weights for the second layer, to the same values).
  So both result buffers hold one function of the arguments, `Cert.Gcn.gcn`; no law of the extended reals beyond the
  re-indexing of the products' sums is used, and the precondition is never opened.

  The three frames: the two kernel programs' are their launches' and host stretches' runs; the reference's is its run as
  a straight line of host operations, none of which writes an argument. The idealization rewrote nothing.
-/
import proofs.«127868_j79087527789063_1_alg».proof.Defs
import proofs.«127868_j79087527789063_1_alg».proof.Proof.Gen.Kernel
import proofs.«127868_j79087527789063_1_alg».proof.Proof.Gen.Kernel.Skeleton
import proofs.«127868_j79087527789063_1_alg».proof.Proof.Gen.Kernel.Launch
import proofs.«127868_j79087527789063_1_alg».proof.Proof.Gen.Kernel.Points
import proofs.«127868_j79087527789063_1_alg».proof.Proof.Gen.Kernel.Frame
import proofs.«127868_j79087527789063_1_alg».proof.Proof.Gen.KernelIdeal
import proofs.«127868_j79087527789063_1_alg».proof.Proof.Gen.KernelIdeal.Skeleton
import proofs.«127868_j79087527789063_1_alg».proof.Proof.Gen.KernelIdeal.Launch
import proofs.«127868_j79087527789063_1_alg».proof.Proof.Gen.KernelIdeal.Points
import proofs.«127868_j79087527789063_1_alg».proof.Proof.Gen.KernelIdeal.Frame
import proofs.«127868_j79087527789063_1_alg».proof.Proof.Gen.ReferenceIdeal
import proofs.«127868_j79087527789063_1_alg».proof.Proof.Gen.Pre_finite_inputs
import proofs.«127868_j79087527789063_1_alg».proof.Proof.KernelRun
import proofs.«127868_j79087527789063_1_alg».proof.Proof.KernelValue
import proofs.«127868_j79087527789063_1_alg».proof.Proof.RegionValues
import proofs.«127868_j79087527789063_1_alg».proof.Proof.RefRun
import proofs.«127868_j79087527789063_1_alg».proof.Proof.RefValue
import Idealize.ShloMosaic.Adequacy
import Idealize.ShloMosaic.Init

noncomputable section

namespace Cert.Proof

open Idealize.ShloMosaic Idealize.ShloMosaic.TcCoe Idealize.SL.Sem

/-- The kernel program, at the word level: its launches and host stretches run, and leave the arguments. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference is a straight line of host operations, none of which writes an argument buffer. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Hand.kept_arg0 _), (h c Cert.ReferenceIdeal.main_arg1).trans (Cert.ReferenceIdeal.Hand.kept_arg1 _),
     (h c Cert.ReferenceIdeal.main_arg2).trans (Cert.ReferenceIdeal.Hand.kept_arg2 _), (h c Cert.ReferenceIdeal.main_arg3).trans (Cert.ReferenceIdeal.Hand.kept_arg3 _),
     (h c Cert.ReferenceIdeal.main_arg4).trans (Cert.ReferenceIdeal.Hand.kept_arg4 _), (h c Cert.ReferenceIdeal.main_arg5).trans (Cert.ReferenceIdeal.Hand.kept_arg5 _),
     (h c Cert.ReferenceIdeal.main_arg6).trans (Cert.ReferenceIdeal.Hand.kept_arg6 _)⟩)
    (Cert.ReferenceIdeal.Hand.run (F := Ideal) m ρ)

/-- The idealization rewrote no operation of the kernel program. -/
theorem preserves : Cert.preserves_Kernel_KernelIdeal := trivial

/-- Both idealized programs end with the graph convolution of the arguments in their result buffers. -/
theorem algebraic : Cert.algebraic_KernelIdeal_ReferenceIdeal := by
  intro m ρ m' ρ' _ hagree
  refine ⟨_, (θ_run Cert.KernelIdeal.defs _ _).mono (fun r h c =>
      ⟨(h c).1.trans (Cert.KernelIdeal.Hand.result_value Cert.KernelIdeal.Regions.region0_array Cert.KernelIdeal.Regions.region1_array Cert.KernelIdeal.Regions.region2_array m ρ c), (h c).2⟩)
    (Cert.KernelIdeal.Hand.run_result (F := Ideal) m ρ), ?_⟩
  refine (θ_run Cert.ReferenceIdeal.defs _ _).mono (fun r h c =>
    ⟨(h c Cert.ReferenceIdeal.main_v104).trans ((Cert.ReferenceIdeal.Hand.result_eq _).trans ?_),
     (h c Cert.ReferenceIdeal.main_arg0).trans (Cert.ReferenceIdeal.Hand.kept_arg0 _), (h c Cert.ReferenceIdeal.main_arg1).trans (Cert.ReferenceIdeal.Hand.kept_arg1 _),
     (h c Cert.ReferenceIdeal.main_arg2).trans (Cert.ReferenceIdeal.Hand.kept_arg2 _), (h c Cert.ReferenceIdeal.main_arg3).trans (Cert.ReferenceIdeal.Hand.kept_arg3 _),
     (h c Cert.ReferenceIdeal.main_arg4).trans (Cert.ReferenceIdeal.Hand.kept_arg4 _), (h c Cert.ReferenceIdeal.main_arg5).trans (Cert.ReferenceIdeal.Hand.kept_arg5 _),
     (h c Cert.ReferenceIdeal.main_arg6).trans (Cert.ReferenceIdeal.Hand.kept_arg6 _)⟩)
    (Cert.ReferenceIdeal.Hand.run (F := Ideal) m' ρ')
  obtain ⟨e0, e1, e2, e3, e4, e5, e6⟩ := hagree c
  show Cert.Gcn.gcn (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
    = Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
